-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_1)) (v1 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_1) = v0 c
          ∧ r.2.mem ((c.tc : Thread Cert.KernelIdeal.nD Cert.KernelIdeal.τ).loc Cert.KernelIdeal.main_v61_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1x64 : Shape := ⟨2, ![1, 64]⟩
abbrev S100000x64 : Shape := ⟨2, ![100000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S1x64, .f32⟩
  | .hbm, ⟨85, _⟩ => ⟨S100000x128, .f32⟩
  | .hbm, ⟨86, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S2000x128, .f32⟩
  | .local _ .vmem, ⟨17, _⟩ => ⟨S2000x128, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  reduces_S2000x128_S2000 : S2000x128.Reduces [1] S2000
  shapeCasts_S2000_S2000x1 : S2000.ShapeCasts S2000x1
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61_1) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call3_cst : Ref sig .tc := ⟨.hbm, 105, rfl⟩
abbrev main_call3_v0 : Ref sig .tc := ⟨.hbm, 106, rfl⟩
abbrev main_call3_cst_0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_cst_1 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its two results named.

  The program is three kernel launches among stretches of host operations.  Its generated frame follows the buffer
  contents from the launch memory through every stretch and every launch; the contents after the last launch are the
  valuation `W8`.  Here the same run is read once more, keeping, beside the unchanged arguments, what the two result
  buffers hold at the end: `W8` at those buffers.  Nothing is computed here; the values are opened in later modules.
-/
import proofs.«165917_j11570641895933_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents and the argument arrays end as launched. -/
theorem run_results : θ_run defs (onTc (τ := τ) (main (F := F))) ⟨m, fun _ => 0, ρ⟩ (fun r => ∀ c : Dev nD,
      r.2.mem ((c.tc : Thread nD τ).loc main_v61_1) = W8 m ρ c (Proc.devRef .tc main_v61_1)
      ∧ r.2.mem ((c.tc : Thread nD τ).loc main_v61_0) = W8 m ρ c (Proc.devRef .tc main_v61_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61_1 (by decide)),
       h c _ (mem_uc main_v61_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Results

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«165917_j11570641895933_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«165917_j11570641895933_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibLogSoftmaxRow.lean ====
/-
  The logarithm of the softmax of a row of extended reals, and the two operation trees that compute it.

  For a row x the function is  x c - M - log (sum over k of exp (x k - M)),  M the maximum of the row taken
  from the least extended real.  A row-blocked kernel computes it over an [a, b] block with lane reductions kept as
  [a, 1] columns and stretched back over the lanes; the host computes it over an [n, b] array with reductions over
  axis 1, the maximum once more joined with the least element, and each reduction broadcast back in two steps.
  Both trees, read at (r, c), are the function of row r at c.  No finiteness is used: the two sides are the same
  expression of the row's entries.
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce
import proofs.«165917_j11570641895933_1_alg».proof.Proof.LibRowLayout

noncomputable section

namespace Cert.Lib.LogSoftmaxRow

open Idealize.ShloMosaic Idealize.ShloMosaic.ValueIdx Cert.KernelIdeal.MvnKernel
open scoped BigOperators

variable {a b : ℕ}

/-- The f32 pattern of minus infinity, as an extended real. -/
abbrev negInf : EReal := Ideal.ofBits .f32 0xFF800000#32

/-- The maximum of a row, folded from minus infinity. -/
def rowMax (row : Fin b → EReal) : EReal := (Finset.univ : Finset (Fin b)).fold max negInf row

/-- The logarithm of the softmax of a row, at position c. -/
def logSoftmaxRow (row : Fin b → EReal) (c : Fin b) : EReal :=
  (row c - rowMax row) - Ideal.log (∑ k : Fin b, Ideal.exp (row k - rowMax row))

/-- Minus infinity is the least extended real: joining it with anything changes nothing. -/
theorem max_negInf (y : EReal) : max negInf y = y := by
  show max (Ideal.ofBits .f32 0xFF800000#32) y = y
  simp [Ideal.ofBits, Ideal.ieee]

/-- The zero pattern is the real zero. -/
theorem zero_add_ofBits (y : EReal) : Ideal.ofBits .f32 0x00000000#32 + y = y := by
  rw [Ideal.ofBits_zero_f32, zero_add]

/-- The logarithm of a vector, read at an index. -/
theorem log_apply {s : Shape} (x : FVec Ideal s .f32) (i : s.Idx) : log x i = Ideal.log (x i) := rfl

/-! ## The kernel's tree -/

/-- The lane maximum of a block, kept as a column and stretched back over the lanes, read at (p, c). -/
theorem laneMax_apply (L : FVec Ideal ⟨2, ![a, b]⟩ .f32)
    (hr : (⟨2, ![a, b]⟩ : Shape).Reduces [1] ⟨1, ![a]⟩) (hφ : FKind.Formats .f32)
    (hacc : (0xFF800000#32 : BitVec (FTy.bits .f32)) = FKind.maximumf.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩
        (multiReduction .maximumf [1] ⟨1, ![a]⟩ L 0xFF800000#32 hr hφ hacc) hc) hb (ix2 p c)
      = rowMax (fun k => L (ix2 p k)) := by
  rw [broadcastTo_a1_ab_apply, shapeCast_a_a1_apply, multiReduction_max_row]
  rfl

/-- The lane sum of a block, kept as a column, read at (p, 0). -/
theorem laneSum_apply (E : FVec Ideal ⟨2, ![a, b]⟩ .f32)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ E 0x00000000#32 hr hφ hacc) hc (ix2 p u)
      = ∑ k : Fin b, E (ix2 p k) := by
  rw [shapeCast_a_a1_apply, multiReduction_add_row]

/-- THE KERNEL'S TREE over a block of logits, read at (p, c): the function of row p at c. -/
theorem kernelTree_apply (L : FVec Ideal ⟨2, ![a, b]⟩ .f32)
    (hr : (⟨2, ![a, b]⟩ : Shape).Reduces [1] ⟨1, ![a]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (c : Fin b) :
    subf (subf L (broadcastTo ⟨2, ![a, b]⟩ (shapeCast ⟨2, ![a, 1]⟩
          (multiReduction .maximumf [1] ⟨1, ![a]⟩ L 0xFF800000#32 hr hφ hmax) hc) hb))
        (broadcastTo ⟨2, ![a, b]⟩ (log (shapeCast ⟨2, ![a, 1]⟩
          (multiReduction .add [1] ⟨1, ![a]⟩
            (exp (subf L (broadcastTo ⟨2, ![a, b]⟩ (shapeCast ⟨2, ![a, 1]⟩
              (multiReduction .maximumf [1] ⟨1, ![a]⟩ L 0xFF800000#32 hr hφ hmax) hc) hb)))
            0x00000000#32 hr hφ hadd) hc)) hb) (ix2 p c)
      = logSoftmaxRow (fun k => L (ix2 p k)) c := by
  rw [subf_apply, subf_apply, laneMax_apply, broadcastTo_a1_ab_apply, log_apply, laneSum_apply]
  unfold logSoftmaxRow
  refine congrArg (fun s => (L (ix2 p c) - rowMax (fun k => L (ix2 p k))) - Ideal.log s) ?_
  refine Finset.sum_congr rfl fun k _ => ?_
  rw [exp_apply, subf_apply, laneMax_apply]

/-! ## The host's tree -/

variable {n : ℕ}

/-- The reduced index r with lane k put back is (r, k). -/
theorem lift_row (h : (⟨2, ![n, b]⟩ : Shape).Reduces [1] (⟨1, ![n]⟩ : Shape)) (r : Fin n)
    (k : Fin ((⟨2, ![n, b]⟩ : Shape).size 1)) : h.lift (ix1 r) k = ix2 r (⟨k.val, k.isLt⟩ : Fin b) := by
  funext d; apply Fin.ext
  fin_cases d <;> rfl

/-- The host's maximum over axis 1 from minus infinity, joined once more with minus infinity, at row r. -/
theorem hostMax_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![]) (r : Fin n) :
    maximumf (broadcastInDim ⟨1, ![n]⟩ ![] hs (constant (F := Ideal) ⟨0, ![]⟩ .f32 0xFF800000#32))
        (Host.reduce FloatOps.maximumf L (constant (F := Ideal) ⟨0, ![]⟩ .f32 0xFF800000#32) h' hu) (ix1 r)
      = rowMax (fun k => L (ix2 r k)) := by
  rw [maximumf_apply, broadcastInDim_apply ![] hs _ (ix1 r) ix0 (fun d => d.elim0),
    Host.reduce_eq_fold_single FloatOps.maximumf L _ h' h hu]
  show max negInf ((Finset.univ : Finset (Fin b)).fold max negInf (L ∘ h.lift (ix1 r))) = _
  rw [max_negInf]
  unfold rowMax
  exact congrArg (fun f => (Finset.univ : Finset (Fin b)).fold max negInf f)
    (funext fun k => congrArg L (lift_row h r k))

/-- A vector laid out as an [n, 1] column by the host, read at (r, u): the vector at r. -/
theorem hostColumn_apply {α : Type} (v : (⟨1, ![n]⟩ : Shape).Idx → α)
    (h0 : (⟨1, ![n]⟩ : Shape).BroadcastsInDim ⟨2, ![n, 1]⟩ ![0]) (r : Fin n) (u : Fin 1) :
    broadcastInDim ⟨2, ![n, 1]⟩ ![0] h0 v (ix2 r u) = v (ix1 r) := by
  refine broadcastInDim_apply ![0] h0 v (ix2 r u) (ix1 r) (fun d => ?_)
  match d with
  | ⟨0, _⟩ =>
    show r.val = if n = 1 then 0 else r.val
    have hlt : r.val < n := r.isLt
    split_ifs with hn
    · omega
    · rfl

/-- An [n, 1] column stretched over b lanes by the host, read at (r, c): the column at row r. -/
theorem hostStretchColumn_apply {α : Type} (v : (⟨2, ![n, 1]⟩ : Shape).Idx → α)
    (h01 : (⟨2, ![n, 1]⟩ : Shape).BroadcastsInDim ⟨2, ![n, b]⟩ ![0, 1]) (r : Fin n) (c : Fin b) :
    broadcastInDim ⟨2, ![n, b]⟩ ![0, 1] h01 v (ix2 r c) = v (ix2 r (0 : Fin 1)) := by
  refine broadcastInDim_apply ![0, 1] h01 v (ix2 r c) (ix2 r (0 : Fin 1)) (fun d => ?_)
  match d with
  | ⟨0, _⟩ =>
    show r.val = if n = 1 then 0 else r.val
    have hlt : r.val < n := r.isLt
    split_ifs with hn
    · omega
    · rfl
  | ⟨1, _⟩ => exact (if_pos rfl).symm

/-- The host's sum over axis 1 from the zero pattern, at row r: the sum of the row's entries. -/
theorem hostSum_apply (E : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel) (r : Fin n) :
    Host.reduceAdd E (constant (F := Ideal) ⟨0, ![]⟩ .f32 0x00000000#32) h' hu (ix1 r) = ∑ k : Fin b, E (ix2 r k) := by
  simp only [Host.reduceAdd, Ideal.hostReduceAdd_def]
  rw [Ideal.hostReduceAdd_single h' h]
  show Ideal.ofBits .f32 0x00000000#32 + _ = _
  rw [zero_add_ofBits]
  exact Finset.sum_congr rfl fun k _ => congrArg E (lift_row h r k)

/-- The host's row maximum laid out as a column and stretched over the lanes, read at (r, c). -/
theorem hostMaxColumn_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    broadcastInDim ⟨2, ![n, b]⟩ ![0, 1] h01 (broadcastInDim ⟨2, ![n, 1]⟩ ![0] h0
        (maximumf (broadcastInDim ⟨1, ![n]⟩ ![] hs (constant (F := Ideal) ⟨0, ![]⟩ .f32 0xFF800000#32))
          (Host.reduce FloatOps.maximumf L (constant (F := Ideal) ⟨0, ![]⟩ .f32 0xFF800000#32) h' hu))) (ix2 r c)
      = rowMax (fun k => L (ix2 r k)) := by
  rw [hostStretchColumn_apply, hostColumn_apply, hostMax_apply L h' h hu hs r]

/-- The host's logarithm and exponential of a vector, read at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- THE HOST'S TREE over an array of logits, read at (r, c): the function of row r at c. -/
theorem hostTree_apply (L : FVec Ideal ⟨2, ![n, b]⟩ .f32)
    (h' : (⟨2, ![n, b]⟩ : Shape).ReducesTo [1] (⟨1, ![n]⟩ : Shape))
    (h : (⟨2, ![n, b]⟩ : Shape).Reduces [1] (⟨1, ![n]⟩ : Shape))
    (hu : 0 < (⟨0, ![]⟩ : Shape).numel)
    (hs : (⟨0, ![]⟩ : Shape).BroadcastsInDim ⟨1, ![n]⟩ ![])
    (h0 : (⟨1, ![n]⟩ : Shape).BroadcastsInDim ⟨2, ![n, 1]⟩ ![0])
    (h01 : (⟨2, ![n, 1]⟩ : Shape).BroadcastsInDim ⟨2, ![n, b]⟩ ![0, 1]) (r : Fin n) (c : Fin b) :
    subf (subf L (broadcastInDim ⟨2, ![n, b]⟩ ![0, 1] h01 (broadcastInDim ⟨2, ![n, 1]⟩ ![0] h0
          (maximumf (broadcastInDim ⟨1, ![n]⟩ ![] hs (constant (F := Ideal) ⟨0, ![]⟩ .f32 0xFF800000#32))
            (Host.reduce FloatOps.maximumf L (constant (F := Ideal) ⟨0, ![]⟩ .f32 0xFF800000#32) h' hu)))))
        (broadcastInDim ⟨2, ![n, b]⟩ ![0, 1] h01 (Host.log (broadcastInDim ⟨2, ![n, 1]⟩ ![0] h0
          (Host.reduceAdd
            (Host.exp (subf L (broadcastInDim ⟨2, ![n, b]⟩ ![0, 1] h01 (broadcastInDim ⟨2, ![n, 1]⟩ ![0] h0
              (maximumf (broadcastInDim ⟨1, ![n]⟩ ![] hs (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu)))) (ix2 r c)
      = logSoftmaxRow (fun k => L (ix2 r k)) c := by
  rw [subf_apply, subf_apply, hostMaxColumn_apply L h' h hu hs h0 h01 r c, hostStretchColumn_apply, hostLog_apply,
    hostColumn_apply, hostSum_apply _ h' h hu r]
  unfold logSoftmaxRow
  refine congrArg (fun s => (L (ix2 r c) - rowMax (fun k => L (ix2 r k))) - Ideal.log s) ?_
  refine Finset.sum_congr rfl fun k _ => ?_
  rw [hostExp_apply, subf_apply, hostMaxColumn_apply L h' h hu hs h0 h01 r k]

end Cert.Lib.LogSoftmaxRow

end
-- ==== Proof.LibNormDecoderBlock.lean ====
/-
  Normalising the rows of a block and decoding them to log-probabilities, at the ideal values.

  An [N, K] array is cut into blocks of R consecutive rows; the block that starts at row o holds rows
  o … o + R − 1, and entry (p, c) of the block is entry (o + p, c) of the array.  Adding a one-row bias,
  dividing a row by its Euclidean length plus a small constant, multiplying by a weight matrix, adding a second
  one-row bias, and taking the logarithm of the softmax of a row all use, for an entry of row r, only entries of
  row r (and of the small whole operands).  So carrying the computation out on a block gives the block of the
  result of carrying it out on the whole array: the normalised block is the block of the normalised array, the
  block's logits are the block of the array's logits, and the block's log-probabilities are the block of the
  array's.  No finiteness is used anywhere: both sides are the same expression of the same entries.  A change of
  float format is the identity on the extended reals, so the narrowing of the two factors before the product
  drops out by definition.
-/
import Idealize.ShloMosaic.PureOps.Ideal.Laws
import Idealize.ShloMosaic.Lib.ValueIdx
import Idealize.ShloMosaic.Lib.Pipeline.Value
import Idealize.ShloMosaic.Lib.ValueLayout
import proofs.«165917_j11570641895933_1_alg».proof.Proof.LibBlockOfWhole
import proofs.«165917_j11570641895933_1_alg».proof.Proof.LibLogSoftmaxRow

noncomputable section

namespace Cert.Blocks

open Idealize.ShloMosaic Idealize.ShloMosaic.ValueIdx Cert.Lib.PlainDot Cert.Bridge Cert.Lib.LogSoftmaxRow
  Cert.KernelIdeal.MvnKernel
open scoped BigOperators

variable {R N K C : Nat}

/-! ## Indices -/

/-- Row o + p of the array, for row p of the block. -/
abbrev blkRow (o : Nat) (h : o + R ≤ N) (p : Fin R) : Fin N :=
  ⟨o + p.val, Nat.lt_of_lt_of_le (Nat.add_lt_add_left p.isLt o) h⟩

/-- Entry (p, c) of the block sits at entry (o + p, c) of the array. -/
theorem shiftRow_ix2 (o : Nat) (h : o + R ≤ N) (p : Fin R) (c : Fin C) :
    shiftRow o h (ix2 p c) = ix2 (blkRow o h p) c :=
  funext fun a => Fin.ext (by match a with | ⟨0, _⟩ => rfl | ⟨1, _⟩ => rfl)

theorem rowBlk_ix2 {α : Type} (o : Nat) (h : o + R ≤ N) (A : (⟨2, ![N, C]⟩ : Shape).Idx → α) (p : Fin R) (c : Fin C) :
    rowBlk o h A (ix2 p c) = A (ix2 (blkRow o h p) c) := by
  rw [rowBlk_apply, shiftRow_ix2]

/-! ## Pointwise pieces -/

/-- The quotient of two blocks is the block of the quotient. -/
theorem divf_rowBlk {φ : FTy} (o : Nat) (h : o + R ≤ N) (A B : FVec Ideal ⟨2, ![N, C]⟩ φ) :
    divf (rowBlk o h A) (rowBlk o h B) = rowBlk o h (Host.divf A B) := rfl

/-- The square root of a block is the block of the square root. -/
theorem sqrt_rowBlk {φ : FTy} (o : Nat) (h : o + R ≤ N) (A : FVec Ideal ⟨2, ![N, C]⟩ φ) :
    sqrt (rowBlk o h A) = rowBlk o h (Host.sqrt A) := rfl

/-- A one-row matrix stretched down R rows is the block of the row stretched down N rows. -/
theorem stretchedRow_rowBlk {φ : FTy} (o : Nat) (h : o + R ≤ N) (B : FVec Ideal ⟨2, ![1, C]⟩ φ)
    (hb : (⟨2, ![1, C]⟩ : Shape).Broadcasts ⟨2, ![R, C]⟩)
    (hB : (⟨2, ![1, C]⟩ : Shape).BroadcastsInDim ⟨2, ![N, C]⟩ ![0, 1]) :
    broadcastTo ⟨2, ![R, C]⟩ B hb = rowBlk o h (broadcastInDim ⟨2, ![N, C]⟩ ![0, 1] hB B) := by
  funext y
  rw [rowBlk_apply, stretchRow_apply, hostStretchRow_apply, shiftRow_rowZero o h y]

/-- A block plus a one-row bias is the block of the array plus the bias. -/
theorem biased_rowBlk {φ : FTy} (o : Nat) (h : o + R ≤ N) (A : FVec Ideal ⟨2, ![N, C]⟩ φ) (B : FVec Ideal ⟨2, ![1, C]⟩ φ)
    (hb : (⟨2, ![1, C]⟩ : Shape).Broadcasts ⟨2, ![R, C]⟩)
    (hB : (⟨2, ![1, C]⟩ : Shape).BroadcastsInDim ⟨2, ![N, C]⟩ ![0, 1]) :
    addf (rowBlk o h A) (broadcastTo ⟨2, ![R, C]⟩ B hb)
      = rowBlk o h (addf A (broadcastInDim ⟨2, ![N, C]⟩ ![0, 1] hB B)) := by
  rw [stretchedRow_rowBlk o h B hb hB, addf_rowBlk]

/-! ## Row sums -/

/-- The lane sums of a block, kept as a column, are the block of the array's row sums laid out as a column. -/
theorem rowSumColumn_rowBlk (o : Nat) (h : o + R ≤ N) (E : FVec Ideal ⟨2, ![N, K]⟩ .f32)
    (hr : (⟨2, ![R, K]⟩ : Shape).Reduces [1] ⟨1, ![R]⟩) (hφ : FKind.Formats .f32)
    (hadd : (0x00000000#32 : BitVec (FTy.bits .f32)) = FKind.add.neutral .f32 hφ)
    (hc : (⟨1, ![R]⟩ : Shape).ShapeCasts ⟨2, ![R, 1]⟩)
    (hr' : (⟨2, ![N, K]⟩ : Shape).ReducesTo [1] (⟨1, ![N]⟩ : Shape))
    (hrN : (⟨2, ![N, K]⟩ : Shape).Reduces [1] (⟨1, ![N]⟩ : Shape))
    (hu : 0 < (⟨0, ![]⟩ : Shape).numel)
    (h0 : (⟨1, ![N]⟩ : Shape).BroadcastsInDim ⟨2, ![N, 1]⟩ ![0]) :
    shapeCast ⟨2, ![R, 1]⟩ (multiReduction .add [1] ⟨1, ![R]⟩ (rowBlk o h E) 0x00000000#32 hr hφ hadd) hc
      = rowBlk (C := 1) o h (broadcastInDim ⟨2, ![N, 1]⟩ ![0] h0
          (Host.reduceAdd E (constant (F := Ideal) ⟨0, ![]⟩ .f32 0x00000000#32) hr' hu)) := by
  funext y
  obtain ⟨p, u, rfl⟩ : ∃ (p : Fin R) (u : Fin 1), y = ix2 p u := ⟨y 0, y 1, eq_ix2 y⟩
  rw [laneSum_apply, rowBlk_ix2, hostColumn_apply, hostSum_apply E hr' hrN hu]
  exact Finset.sum_congr rfl fun k _ => rowBlk_ix2 o h E p k

/-! ## The normalised block -/

/-- THE NORMALISED BLOCK: a block plus a one-row bias, each row divided by the square root of its sum of squares
    plus a small constant, is the block of the same computation on the whole array. -/
theorem normalize_rowBlk (o : Nat) (h : o + R ≤ N) (A : FVec Ideal ⟨2, ![N, K]⟩ .f32) (B : FVec Ideal ⟨2, ![1, K]⟩ .f32)
    (ε : BitVec 32)
    (hB : (⟨2, ![1, K]⟩ : Shape).Broadcasts ⟨2, ![R, K]⟩)
    (hr : (⟨2, ![R, K]⟩ : Shape).Reduces [1] ⟨1, ![R]⟩) (hφ : FKind.Formats .f32)
    (hadd : (0x00000000#32 : BitVec (FTy.bits .f32)) = FKind.add.neutral .f32 hφ)
    (hc : (⟨1, ![R]⟩ : Shape).ShapeCasts ⟨2, ![R, 1]⟩)
    (hcol : (⟨2, ![R, 1]⟩ : Shape).Broadcasts ⟨2, ![R, K]⟩)
    (hB' : (⟨2, ![1, K]⟩ : Shape).BroadcastsInDim ⟨2, ![N, K]⟩ ![0, 1])
    (hr' : (⟨2, ![N, K]⟩ : Shape).ReducesTo [1] (⟨1, ![N]⟩ : Shape))
    (hrN : (⟨2, ![N, K]⟩ : Shape).Reduces [1] (⟨1, ![N]⟩ : Shape))
    (hu : 0 < (⟨0, ![]⟩ : Shape).numel)
    (h0 : (⟨1, ![N]⟩ : Shape).BroadcastsInDim ⟨2, ![N, 1]⟩ ![0])
    (hz : (⟨0, ![]⟩ : Shape).BroadcastsInDim ⟨2, ![N, 1]⟩ ![])
    (h01 : (⟨2, ![N, 1]⟩ : Shape).BroadcastsInDim ⟨2, ![N, K]⟩ ![0, 1]) :
    divf (addf (rowBlk o h A) (broadcastTo ⟨2, ![R, K]⟩ B hB))
        (broadcastTo ⟨2, ![R, K]⟩
          (addf (sqrt (shapeCast ⟨2, ![R, 1]⟩
              (multiReduction .add [1] ⟨1, ![R]⟩
                (mulf (addf (rowBlk o h A) (broadcastTo ⟨2, ![R, K]⟩ B hB))
                  (addf (rowBlk o h A) (broadcastTo ⟨2, ![R, K]⟩ B hB)))
                0x00000000#32 hr hφ hadd) hc))
            (broadcast ⟨2, ![R, 1]⟩ (Scalar.ofBits (F := Ideal) .f32 ε))) hcol)
      = rowBlk o h (Host.divf (addf A (broadcastInDim ⟨2, ![N, K]⟩ ![0, 1] hB' B))
          (broadcastInDim ⟨2, ![N, K]⟩ ![0, 1] h01
            (addf (Host.sqrt (broadcastInDim ⟨2, ![N, 1]⟩ ![0] h0
                (Host.reduceAdd
                  (mulf (addf A (broadcastInDim ⟨2, ![N, K]⟩ ![0, 1] hB' B))
                    (addf A (broadcastInDim ⟨2, ![N, K]⟩ ![0, 1] hB' B)))
                  (constant (F := Ideal) ⟨0, ![]⟩ .f32 0x00000000#32) hr' hu)))
              (broadcastInDim ⟨2, ![N, 1]⟩ ![] hz (constant (F := Ideal) ⟨0, ![]⟩ .f32 ε))))) := by
  rw [biased_rowBlk o h A B hB hB', mulf_rowBlk, rowSumColumn_rowBlk o h _ hr hφ hadd hc hr' hrN hu h0, sqrt_rowBlk,
    splat_rowBlk (C := 1) o h ε hz, addf_rowBlk, colStretch_rowBlk o h _ hcol h01, divf_rowBlk]

/-! ## The product with narrowed factors, and the logits -/

/-- The product of a row block with a weight matrix, both factors first changed to a narrower float format (the
    identity on the extended reals), is the row block of the product. -/
theorem matmul_truncf_rowBlk {φ₁ φ₂ ψ₁ ψ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hψ₁ : ψ₁.bits < φ₁.bits) (hψ₂ : ψ₂.bits < φ₂.bits)
    (X : FVec Ideal ⟨2, ![N, K]⟩ φ₁) (W : FVec Ideal ⟨2, ![K, C]⟩ φ₂) :
    matmul d none (truncf ψ₁ (rowBlk o h X) hψ₁) (truncf ψ₂ W hψ₂) (constant ⟨2, ![R, C]⟩ .f32 0x00000000#32)
      = rowBlk o h (Host.dotGeneral D none X W) :=
  funext fun y => dot_block d hd D hD none none X W (truncf ψ₁ (rowBlk o h X) hψ₁) (truncf ψ₂ W hψ₂)
    (shiftRow o h) id (shiftRow o h) (fun _ => rfl) (fun _ => rfl)
    (fun y k => shiftRow_rowIdx o h y k) (fun y k => shiftRow_colIdx o h y k) y

/-- THE LOGITS of a block: the block times the weights plus a one-row bias is the block of the array's logits. -/
theorem logits_rowBlk {φ₁ φ₂ ψ₁ ψ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hψ₁ : ψ₁.bits < φ₁.bits) (hψ₂ : ψ₂.bits < φ₂.bits)
    (X : FVec Ideal ⟨2, ![N, K]⟩ φ₁) (W : FVec Ideal ⟨2, ![K, C]⟩ φ₂) (Bd : FVec Ideal ⟨2, ![1, C]⟩ .f32)
    (hBd : (⟨2, ![1, C]⟩ : Shape).Broadcasts ⟨2, ![R, C]⟩)
    (hBd' : (⟨2, ![1, C]⟩ : Shape).BroadcastsInDim ⟨2, ![N, C]⟩ ![0, 1]) :
    addf (matmul d none (truncf ψ₁ (rowBlk o h X) hψ₁) (truncf ψ₂ W hψ₂) (constant ⟨2, ![R, C]⟩ .f32 0x00000000#32))
        (broadcastTo ⟨2, ![R, C]⟩ Bd hBd)
      = rowBlk o h (addf (Host.dotGeneral D none X W) (broadcastInDim ⟨2, ![N, C]⟩ ![0, 1] hBd' Bd)) := by
  rw [matmul_truncf_rowBlk o h d hd D hD hψ₁ hψ₂, stretchedRow_rowBlk o h Bd hBd hBd', addf_rowBlk]

/-! ## The logarithm of the softmax -/

/-- THE LOG-SOFTMAX of a block of logits, by the lane reductions kept as columns, is the block of the log-softmax
    of the array of logits, by the reductions over axis 1: row p of the block is row o + p of the array. -/
theorem logSoftmax_rowBlk (o : Nat) (h : o + R ≤ N) (L : FVec Ideal ⟨2, ![N, C]⟩ .f32)
    (hrC : (⟨2, ![R, C]⟩ : Shape).Reduces [1] ⟨1, ![R]⟩) (hφ₂ : FKind.Formats .f32)
    (hmax : (0xFF800000#32 : BitVec (FTy.bits .f32)) = FKind.maximumf.neutral .f32 hφ₂)
    (hadd₂ : (0x00000000#32 : BitVec (FTy.bits .f32)) = FKind.add.neutral .f32 hφ₂)
    (hc₂ : (⟨1, ![R]⟩ : Shape).ShapeCasts ⟨2, ![R, 1]⟩)
    (hbC : (⟨2, ![R, 1]⟩ : Shape).Broadcasts ⟨2, ![R, C]⟩)
    (hC' : (⟨2, ![N, C]⟩ : Shape).ReducesTo [1] (⟨1, ![N]⟩ : Shape))
    (hCN : (⟨2, ![N, C]⟩ : Shape).Reduces [1] (⟨1, ![N]⟩ : Shape))
    (hu : 0 < (⟨0, ![]⟩ : Shape).numel)
    (hs : (⟨0, ![]⟩ : Shape).BroadcastsInDim ⟨1, ![N]⟩ ![])
    (h0₂ : (⟨1, ![N]⟩ : Shape).BroadcastsInDim ⟨2, ![N, 1]⟩ ![0])
    (h01C : (⟨2, ![N, 1]⟩ : Shape).BroadcastsInDim ⟨2, ![N, C]⟩ ![0, 1]) :
    subf (subf (rowBlk o h L) (broadcastTo ⟨2, ![R, C]⟩ (shapeCast ⟨2, ![R, 1]⟩
        (multiReduction .maximumf [1] ⟨1, ![R]⟩ (rowBlk o h L) 0xFF800000#32 hrC hφ₂ hmax) hc₂) hbC))
      (broadcastTo ⟨2, ![R, C]⟩ (log (shapeCast ⟨2, ![R, 1]⟩
        (multiReduction .add [1] ⟨1, ![R]⟩
          (exp (subf (rowBlk o h L) (broadcastTo ⟨2, ![R, C]⟩ (shapeCast ⟨2, ![R, 1]⟩
        (multiReduction .maximumf [1] ⟨1, ![R]⟩ (rowBlk o h L) 0xFF800000#32 hrC hφ₂ hmax) hc₂) hbC)))
          0x00000000#32 hrC hφ₂ hadd₂) hc₂)) hbC)
      = rowBlk o h (subf (subf L (broadcastInDim ⟨2, ![N, C]⟩ ![0, 1] h01C (broadcastInDim ⟨2, ![N, 1]⟩ ![0] h0₂
        (maximumf (broadcastInDim ⟨1, ![N]⟩ ![] hs (constant (F := Ideal) ⟨0, ![]⟩ .f32 0xFF800000#32))
          (Host.reduce FloatOps.maximumf L (constant (F := Ideal) ⟨0, ![]⟩ .f32 0xFF800000#32) hC' hu)))))
      (broadcastInDim ⟨2, ![N, C]⟩ ![0, 1] h01C (Host.log (broadcastInDim ⟨2, ![N, 1]⟩ ![0] h0₂
        (Host.reduceAdd
          (Host.exp (subf L (broadcastInDim ⟨2, ![N, C]⟩ ![0, 1] h01C (broadcastInDim ⟨2, ![N, 1]⟩ ![0] h0₂
        (maximumf (broadcastInDim ⟨1, ![N]⟩ ![] hs (constant (F := Ideal) ⟨0, ![]⟩ .f32 0xFF800000#32))
          (Host.reduce FloatOps.maximumf L (constant (F := Ideal) ⟨0, ![]⟩ .f32 0xFF800000#32) hC' hu))))))
          (constant (F := Ideal) ⟨0, ![]⟩ .f32 0x00000000#32) hC' hu))))) := by
  funext y
  obtain ⟨p, c, rfl⟩ : ∃ (p : Fin R) (c : Fin C), y = ix2 p c := ⟨y 0, y 1, eq_ix2 y⟩
  rw [kernelTree_apply, rowBlk_ix2, hostTree_apply L hC' hCN hu hs h0₂ h01C (blkRow o h p) c]
  exact congrArg (fun row => logSoftmaxRow row c) (funext fun k => rowBlk_ix2 o h L p k)

/-! ## The decoded block -/

/-- THE DECODED BLOCK: normalise the block's rows, multiply by the weights, add the bias, take the log-softmax of
    each row — the block of the same computation on the whole array. -/
theorem decode_rowBlk (o : Nat) (h : o + R ≤ N) (A : FVec Ideal ⟨2, ![N, K]⟩ .f32) (B : FVec Ideal ⟨2, ![1, K]⟩ .f32)
    (Wd : FVec Ideal ⟨2, ![K, C]⟩ .f32) (Bd : FVec Ideal ⟨2, ![1, C]⟩ .f32) (ε : BitVec 32)
    (hB : (⟨2, ![1, K]⟩ : Shape).Broadcasts ⟨2, ![R, K]⟩)
    (hr : (⟨2, ![R, K]⟩ : Shape).Reduces [1] ⟨1, ![R]⟩) (hφ : FKind.Formats .f32)
    (hadd : (0x00000000#32 : BitVec (FTy.bits .f32)) = FKind.add.neutral .f32 hφ)
    (hc : (⟨1, ![R]⟩ : Shape).ShapeCasts ⟨2, ![R, 1]⟩)
    (hcol : (⟨2, ![R, 1]⟩ : Shape).Broadcasts ⟨2, ![R, K]⟩)
    (hB' : (⟨2, ![1, K]⟩ : Shape).BroadcastsInDim ⟨2, ![N, K]⟩ ![0, 1])
    (hr' : (⟨2, ![N, K]⟩ : Shape).ReducesTo [1] (⟨1, ![N]⟩ : Shape))
    (hrN : (⟨2, ![N, K]⟩ : Shape).Reduces [1] (⟨1, ![N]⟩ : Shape))
    (hu : 0 < (⟨0, ![]⟩ : Shape).numel)
    (h0 : (⟨1, ![N]⟩ : Shape).BroadcastsInDim ⟨2, ![N, 1]⟩ ![0])
    (hz : (⟨0, ![]⟩ : Shape).BroadcastsInDim ⟨2, ![N, 1]⟩ ![])
    (h01 : (⟨2, ![N, 1]⟩ : Shape).BroadcastsInDim ⟨2, ![N, K]⟩ ![0, 1])
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hψ : FTy.bits .bf16 < FTy.bits .f32)
    (hBd : (⟨2, ![1, C]⟩ : Shape).Broadcasts ⟨2, ![R, C]⟩)
    (hBd' : (⟨2, ![1, C]⟩ : Shape).BroadcastsInDim ⟨2, ![N, C]⟩ ![0, 1])
    (hrC : (⟨2, ![R, C]⟩ : Shape).Reduces [1] ⟨1, ![R]⟩) (hφ₂ : FKind.Formats .f32)
    (hmax : (0xFF800000#32 : BitVec (FTy.bits .f32)) = FKind.maximumf.neutral .f32 hφ₂)
    (hadd₂ : (0x00000000#32 : BitVec (FTy.bits .f32)) = FKind.add.neutral .f32 hφ₂)
    (hc₂ : (⟨1, ![R]⟩ : Shape).ShapeCasts ⟨2, ![R, 1]⟩)
    (hbC : (⟨2, ![R, 1]⟩ : Shape).Broadcasts ⟨2, ![R, C]⟩)
    (hC' : (⟨2, ![N, C]⟩ : Shape).ReducesTo [1] (⟨1, ![N]⟩ : Shape))
    (hCN : (⟨2, ![N, C]⟩ : Shape).Reduces [1] (⟨1, ![N]⟩ : Shape))
    (hs : (⟨0, ![]⟩ : Shape).BroadcastsInDim ⟨1, ![N]⟩ ![])
    (h0₂ : (⟨1, ![N]⟩ : Shape).BroadcastsInDim ⟨2, ![N, 1]⟩ ![0])
    (h01C : (⟨2, ![N, 1]⟩ : Shape).BroadcastsInDim ⟨2, ![N, C]⟩ ![0, 1]) :
    subf (subf (addf (matmul d none (truncf .bf16 (divf (addf (rowBlk o h A) (broadcastTo ⟨2, ![R, K]⟩ B hB))
          (broadcastTo ⟨2, ![R, K]⟩
            (addf (sqrt (shapeCast ⟨2, ![R, 1]⟩
                (multiReduction .add [1] ⟨1, ![R]⟩ (mulf (addf (rowBlk o h A) (broadcastTo ⟨2, ![R, K]⟩ B hB))
                    (addf (rowBlk o h A) (broadcastTo ⟨2, ![R, K]⟩ B hB)))
                  0x00000000#32 hr hφ hadd) hc))
              (broadcast ⟨2, ![R, 1]⟩ (Scalar.ofBits (F := Ideal) .f32 ε))) hcol)) hψ) (truncf .bf16 Wd hψ)
          (constant ⟨2, ![R, C]⟩ .f32 0x00000000#32))
        (broadcastTo ⟨2, ![R, C]⟩ Bd hBd)) (broadcastTo ⟨2, ![R, C]⟩ (shapeCast ⟨2, ![R, 1]⟩
        (multiReduction .maximumf [1] ⟨1, ![R]⟩ (addf (matmul d none (truncf .bf16 (divf (addf (rowBlk o h A) (broadcastTo ⟨2, ![R, K]⟩ B hB))
          (broadcastTo ⟨2, ![R, K]⟩
            (addf (sqrt (shapeCast ⟨2, ![R, 1]⟩
                (multiReduction .add [1] ⟨1, ![R]⟩ (mulf (addf (rowBlk o h A) (broadcastTo ⟨2, ![R, K]⟩ B hB))
                    (addf (rowBlk o h A) (broadcastTo ⟨2, ![R, K]⟩ B hB)))
                  0x00000000#32 hr hφ hadd) hc))
              (broadcast ⟨2, ![R, 1]⟩ (Scalar.ofBits (F := Ideal) .f32 ε))) hcol)) hψ) (truncf .bf16 Wd hψ)
          (constant ⟨2, ![R, C]⟩ .f32 0x00000000#32))
        (broadcastTo ⟨2, ![R, C]⟩ Bd hBd)) 0xFF800000#32 hrC hφ₂ hmax) hc₂) hbC))
      (broadcastTo ⟨2, ![R, C]⟩ (log (shapeCast ⟨2, ![R, 1]⟩
        (multiReduction .add [1] ⟨1, ![R]⟩
          (exp (subf (addf (matmul d none (truncf .bf16 (divf (addf (rowBlk o h A) (broadcastTo ⟨2, ![R, K]⟩ B hB))
          (broadcastTo ⟨2, ![R, K]⟩
            (addf (sqrt (shapeCast ⟨2, ![R, 1]⟩
                (multiReduction .add [1] ⟨1, ![R]⟩ (mulf (addf (rowBlk o h A) (broadcastTo ⟨2, ![R, K]⟩ B hB))
                    (addf (rowBlk o h A) (broadcastTo ⟨2, ![R, K]⟩ B hB)))
                  0x00000000#32 hr hφ hadd) hc))
              (broadcast ⟨2, ![R, 1]⟩ (Scalar.ofBits (F := Ideal) .f32 ε))) hcol)) hψ) (truncf .bf16 Wd hψ)
          (constant ⟨2, ![R, C]⟩ .f32 0x00000000#32))
        (broadcastTo ⟨2, ![R, C]⟩ Bd hBd)) (broadcastTo ⟨2, ![R, C]⟩ (shapeCast ⟨2, ![R, 1]⟩
        (multiReduction .maximumf [1] ⟨1, ![R]⟩ (addf (matmul d none (truncf .bf16 (divf (addf (rowBlk o h A) (broadcastTo ⟨2, ![R, K]⟩ B hB))
          (broadcastTo ⟨2, ![R, K]⟩
            (addf (sqrt (shapeCast ⟨2, ![R, 1]⟩
                (multiReduction .add [1] ⟨1, ![R]⟩ (mulf (addf (rowBlk o h A) (broadcastTo ⟨2, ![R, K]⟩ B hB))
                    (addf (rowBlk o h A) (broadcastTo ⟨2, ![R, K]⟩ B hB)))
                  0x00000000#32 hr hφ hadd) hc))
              (broadcast ⟨2, ![R, 1]⟩ (Scalar.ofBits (F := Ideal) .f32 ε))) hcol)) hψ) (truncf .bf16 Wd hψ)
          (constant ⟨2, ![R, C]⟩ .f32 0x00000000#32))
        (broadcastTo ⟨2, ![R, C]⟩ Bd hBd)) 0xFF800000#32 hrC hφ₂ hmax) hc₂) hbC)))
          0x00000000#32 hrC hφ₂ hadd₂) hc₂)) hbC)
      = rowBlk o h (subf (subf (addf (Host.dotGeneral D none (Host.divf (addf A (broadcastInDim ⟨2, ![N, K]⟩ ![0, 1] hB' B))
          (broadcastInDim ⟨2, ![N, K]⟩ ![0, 1] h01
            (addf (Host.sqrt (broadcastInDim ⟨2, ![N, 1]⟩ ![0] h0
                (Host.reduceAdd (mulf (addf A (broadcastInDim ⟨2, ![N, K]⟩ ![0, 1] hB' B))
                    (addf A (broadcastInDim ⟨2, ![N, K]⟩ ![0, 1] hB' B)))
                  (constant (F := Ideal) ⟨0, ![]⟩ .f32 0x00000000#32) hr' hu)))
              (broadcastInDim ⟨2, ![N, 1]⟩ ![] hz (constant (F := Ideal) ⟨0, ![]⟩ .f32 ε))))) Wd)
        (broadcastInDim ⟨2, ![N, C]⟩ ![0, 1] hBd' Bd)) (broadcastInDim ⟨2, ![N, C]⟩ ![0, 1] h01C (broadcastInDim ⟨2, ![N, 1]⟩ ![0] h0₂
        (maximumf (broadcastInDim ⟨1, ![N]⟩ ![] hs (constant (F := Ideal) ⟨0, ![]⟩ .f32 0xFF800000#32))
          (Host.reduce FloatOps.maximumf (addf (Host.dotGeneral D none (Host.divf (addf A (broadcastInDim ⟨2, ![N, K]⟩ ![0, 1] hB' B))
          (broadcastInDim ⟨2, ![N, K]⟩ ![0, 1] h01
            (addf (Host.sqrt (broadcastInDim ⟨2, ![N, 1]⟩ ![0] h0
                (Host.reduceAdd (mulf (addf A (broadcastInDim ⟨2, ![N, K]⟩ ![0, 1] hB' B))
                    (addf A (broadcastInDim ⟨2, ![N, K]⟩ ![0, 1] hB' B)))
                  (constant (F := Ideal) ⟨0, ![]⟩ .f32 0x00000000#32) hr' hu)))
              (broadcastInDim ⟨2, ![N, 1]⟩ ![] hz (constant (F := Ideal) ⟨0, ![]⟩ .f32 ε))))) Wd)
        (broadcastInDim ⟨2, ![N, C]⟩ ![0, 1] hBd' Bd)) (constant (F := Ideal) ⟨0, ![]⟩ .f32 0xFF800000#32) hC' hu)))))
      (broadcastInDim ⟨2, ![N, C]⟩ ![0, 1] h01C (Host.log (broadcastInDim ⟨2, ![N, 1]⟩ ![0] h0₂
        (Host.reduceAdd
          (Host.exp (subf (addf (Host.dotGeneral D none (Host.divf (addf A (broadcastInDim ⟨2, ![N, K]⟩ ![0, 1] hB' B))
          (broadcastInDim ⟨2, ![N, K]⟩ ![0, 1] h01
            (addf (Host.sqrt (broadcastInDim ⟨2, ![N, 1]⟩ ![0] h0
                (Host.reduceAdd (mulf (addf A (broadcastInDim ⟨2, ![N, K]⟩ ![0, 1] hB' B))
                    (addf A (broadcastInDim ⟨2, ![N, K]⟩ ![0, 1] hB' B)))
                  (constant (F := Ideal) ⟨0, ![]⟩ .f32 0x00000000#32) hr' hu)))
              (broadcastInDim ⟨2, ![N, 1]⟩ ![] hz (constant (F := Ideal) ⟨0, ![]⟩ .f32 ε))))) Wd)
        (broadcastInDim ⟨2, ![N, C]⟩ ![0, 1] hBd' Bd)) (broadcastInDim ⟨2, ![N, C]⟩ ![0, 1] h01C (broadcastInDim ⟨2, ![N, 1]⟩ ![0] h0₂
        (maximumf (broadcastInDim ⟨1, ![N]⟩ ![] hs (constant (F := Ideal) ⟨0, ![]⟩ .f32 0xFF800000#32))
          (Host.reduce FloatOps.maximumf (addf (Host.dotGeneral D none (Host.divf (addf A (broadcastInDim ⟨2, ![N, K]⟩ ![0, 1] hB' B))
          (broadcastInDim ⟨2, ![N, K]⟩ ![0, 1] h01
            (addf (Host.sqrt (broadcastInDim ⟨2, ![N, 1]⟩ ![0] h0
                (Host.reduceAdd (mulf (addf A (broadcastInDim ⟨2, ![N, K]⟩ ![0, 1] hB' B))
                    (addf A (broadcastInDim ⟨2, ![N, K]⟩ ![0, 1] hB' B)))
                  (constant (F := Ideal) ⟨0, ![]⟩ .f32 0x00000000#32) hr' hu)))
              (broadcastInDim ⟨2, ![N, 1]⟩ ![] hz (constant (F := Ideal) ⟨0, ![]⟩ .f32 ε))))) Wd)
        (broadcastInDim ⟨2, ![N, C]⟩ ![0, 1] hBd' Bd)) (constant (F := Ideal) ⟨0, ![]⟩ .f32 0xFF800000#32) hC' hu))))))
          (constant (F := Ideal) ⟨0, ![]⟩ .f32 0x00000000#32) hC' hu))))) := by
  rw [normalize_rowBlk o h A B ε hB hr hφ hadd hc hcol hB' hr' hrN hu h0 hz h01,
    logits_rowBlk o h d hd D hD hψ hψ _ Wd Bd hBd hBd',
    logSoftmax_rowBlk o h _ hrC hφ₂ hmax hadd₂ hc₂ hbC hC' hCN hu hs h0₂ h01C]

/-! ## A dense layer after a rectified bias -/

/-- The block plus a one-row bias, joined with a constant, narrowed and multiplied by narrowed weights, is the
    block of the same computation on the whole array. -/
theorem reluDense_rowBlk (o : Nat) (h : o + R ≤ N) (A : FVec Ideal ⟨2, ![N, K]⟩ .f32) (B : FVec Ideal ⟨2, ![1, K]⟩ .f32)
    (W : FVec Ideal ⟨2, ![K, C]⟩ .f32) (z : BitVec 32)
    (hB : (⟨2, ![1, K]⟩ : Shape).Broadcasts ⟨2, ![R, K]⟩)
    (hB' : (⟨2, ![1, K]⟩ : Shape).BroadcastsInDim ⟨2, ![N, K]⟩ ![0, 1])
    (hZ : (⟨0, ![]⟩ : Shape).BroadcastsInDim ⟨2, ![N, K]⟩ ![])
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (hψ : FTy.bits .bf16 < FTy.bits .f32) :
    matmul d none
        (truncf .bf16 (maximumf (addf (rowBlk o h A) (broadcastTo ⟨2, ![R, K]⟩ B hB))
          (broadcast ⟨2, ![R, K]⟩ (Scalar.ofBits (F := Ideal) .f32 z))) hψ)
        (truncf .bf16 W hψ) (constant ⟨2, ![R, C]⟩ .f32 0x00000000#32)
      = rowBlk o h (Host.dotGeneral D none
          (maximumf (addf A (broadcastInDim ⟨2, ![N, K]⟩ ![0, 1] hB' B))
            (broadcastInDim ⟨2, ![N, K]⟩ ![] hZ (constant (F := Ideal) ⟨0, ![]⟩ .f32 z))) W) := by
  rw [biased_rowBlk o h A B hB hB', splat_rowBlk o h z hZ, maximumf_rowBlk,
    matmul_truncf_rowBlk o h d hd D hD hψ hψ]

end Cert.Blocks

end
-- ==== Proof.GcnSpec.lean ====
/-
  Two graph-convolution layers, a row normalisation and a decoder, as whole-array functions.

  The edge list [2, E] is extended by one self-loop per node: sources and targets are the two rows, each followed by
  0 … N − 1.  A node's degree counts the edges that arrive at it; an edge's weight is the product of the inverse square
  roots of the degrees of its two ends (zero where a degree is not positive).  One aggregation step gathers the
  feature row of every edge's source, scales it by the edge's weight and adds it into the row of the edge's target.
  A layer is a dense product followed by an aggregation and a bias row.  After the second layer every row is divided
  by its Euclidean length plus a small constant, multiplied by the decoder's weights, shifted by the decoder's bias,
  and turned into the logarithm of its softmax.  Everything here is the composition of those whole-array steps; the
  steps are spelt with the host's operations so that both programs can be read against them.
-/
import proofs.«165917_j11570641895933_1_alg».proof.ReferenceIdeal
import Idealize.ShloMosaic.PureOps.Ideal

noncomputable section

namespace Cert.Gcn

open Cert.ReferenceIdeal Idealize.ShloMosaic

variable {F : FTy → Type} [FloatOps F] [Cert.ReferenceIdeal.Facts]
open Cert.ReferenceIdeal.Facts₀ Cert.ReferenceIdeal.Facts

/-- The sources of the edges: row 0 of the edge list, then one self-loop per node. -/
def sources (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The targets of the edges: row 1 of the edge list, then one self-loop per node. -/
def targets (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- Node indices as a column, an index below zero counted from the end (i + N). -/
def wrapColumn (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The number of edges arriving at each node. -/
def degree (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- The inverse square root of the degree where it is positive, zero elsewhere. -/
def invSqrtDegree (col : (⟨S1700000, .i32⟩ : BufTy).Contents (Elt F)) : (⟨S100000, .f32⟩ : BufTy).Contents (Elt F) :=
  select (cmpf (F := F) .ogt (degree col) (broadcastInDim S100000 ![] bcast_S_S100000 (constant S_ .f32 0x00000000#32)))
    (Host.rsqrt (degree col))
    (broadcastInDim S100000 ![] bcast_S_S100000 (id (constant S_ .f32 0x00000000#32)))

/-- The weight of each edge: the product of the two ends' inverse square-root degrees. -/
def edgeWeight (row col : (⟨S1700000, .i32⟩ : BufTy).Contents (Elt F)) : (⟨S1700000, .f32⟩ : BufTy).Contents (Elt F) :=
  mulf (Host.gather gather_S100000_S1700000x1_S1700000_n_0_n_n_0_1_1 (invSqrtDegree col) (wrapColumn row))
    (Host.gather gather_S100000_S1700000x1_S1700000_n_0_n_n_0_1_1 (invSqrtDegree col) (wrapColumn col))

/-- One aggregation step: every edge adds its source's row, scaled by the edge's weight, into its target's row. -/
def aggregate (h : (⟨S100000x128, .f32⟩ : BufTy).Contents (Elt F)) (row col : (⟨S1700000, .i32⟩ : BufTy).Contents (Elt F))
    (w : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (Host.gather gather_S100000x128_S1700000x1_S1700000x128_1_0_n_n_0_1_1128 h (wrapColumn row))
      (broadcastInDim S1700000x128 ![0, 1] bcast_S1700000x1_S1700000x128_0_1
        (broadcastInDim S1700000x1 ![0] bcast_S1700000_S1700000x1_0 w)))

/-- The first dense product. -/
def project (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- A bias row added to every row. -/
def biased (a : (⟨S100000x128, .f32⟩ : BufTy).Contents (Elt F)) (B : (⟨S1x128, .f32⟩ : BufTy).Contents (Elt F)) :
    (⟨S100000x128, .f32⟩ : BufTy).Contents (Elt F) :=
  addf a (broadcastInDim S100000x128 ![0, 1] bcast_S1x128_S100000x128_0_1 B)

/-- Bias, maximum with zero, and the second dense product. -/
def hidden (a : (⟨S100000x128, .f32⟩ : BufTy).Contents (Elt F)) (B : (⟨S1x128, .f32⟩ : BufTy).Contents (Elt F))
    (W : (⟨S128x128, .f32⟩ : BufTy).Contents (Elt F)) : (⟨S100000x128, .f32⟩ : BufTy).Contents (Elt F) :=
  Host.dotGeneral dot_S100000x128_S128x128_S100000x128_1_0_0_1_n_n none
    (maximumf (biased a B) (broadcastInDim S100000x128 ![] bcast_S_S100000x128 (constant S_ .f32 0x00000000#32))) W

/-- Every row divided by its Euclidean length plus a small constant. -/
def normalized (H : (⟨S100000x128, .f32⟩ : BufTy).Contents (Elt F)) : (⟨S100000x128, .f32⟩ : BufTy).Contents (Elt F) :=
  Host.divf H (broadcastInDim S100000x128 ![0, 1] bcast_S100000x1_S100000x128_0_1
    (addf (Host.sqrt (broadcastInDim S100000x1 ![0] bcast_S100000_S100000x1_0
        (Host.reduceAdd (mulf H H) (constant S_ .f32 0x00000000#32) reducesTo_S100000x128_S100000_d1 h_S_)))
      (broadcastInDim S100000x1 ![] bcast_S_S100000x1 (constant S_ .f32 0x2B8CBCCC#32))))

/-- The embedding: bias, then the row normalisation. -/
def embedding (a : (⟨S100000x128, .f32⟩ : BufTy).Contents (Elt F)) (B : (⟨S1x128, .f32⟩ : BufTy).Contents (Elt F)) :
    (⟨S100000x128, .f32⟩ : BufTy).Contents (Elt F) :=
  normalized (biased a B)

/-- The decoder's scores. -/
def logits (E : (⟨S100000x128, .f32⟩ : BufTy).Contents (Elt F)) (Wd : (⟨S128x64, .f32⟩ : BufTy).Contents (Elt F))
    (Bd : (⟨S1x64, .f32⟩ : BufTy).Contents (Elt F)) : (⟨S100000x64, .f32⟩ : BufTy).Contents (Elt F) :=
  addf (Host.dotGeneral dot_S100000x128_S128x64_S100000x64_1_0_0_1_n_n none E Wd)
    (broadcastInDim S100000x64 ![0, 1] bcast_S1x64_S100000x64_0_1 Bd)

/-- Each row's maximum (taken from minus infinity), stretched back over the row. -/
def rowMaxima (L : (⟨S100000x64, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf L (constant S_ .f32 0xFF800000#32) reducesTo_S100000x64_S100000_d1 h_S_)))

/-- The logarithm of the softmax of every row. -/
def logSoftmax (L : (⟨S100000x64, .f32⟩ : BufTy).Contents (Elt F)) : (⟨S100000x64, .f32⟩ : BufTy).Contents (Elt F) :=
  subf (subf L (rowMaxima L))
    (broadcastInDim S100000x64 ![0, 1] bcast_S100000x1_S100000x64_0_1 (Host.log (broadcastInDim S100000x1 ![0] bcast_S100000_S100000x1_0
      (Host.reduceAdd (Host.exp (subf L (rowMaxima L))) (constant S_ .f32 0x00000000#32) reducesTo_S100000x64_S100000_d1 h_S_))))

/-- A bias vector as a one-row matrix. -/
def asRow128 (b : (⟨S128, .f32⟩ : BufTy).Contents (Elt F)) : (⟨S1x128, .f32⟩ : BufTy).Contents (Elt F) :=
  broadcastInDim S1x128 ![1] bcast_S128_S1x128_1 b
def asRow64 (b : (⟨S64, .f32⟩ : BufTy).Contents (Elt F)) : (⟨S1x64, .f32⟩ : BufTy).Contents (Elt F) :=
  broadcastInDim S1x64 ![1] bcast_S64_S1x64_1 b

/-- The second layer's aggregate plus its bias, from the arguments: what the row normalisation is applied to. -/
def preNorm (x : (⟨S100000x128, .f32⟩ : BufTy).Contents (Elt F)) (ei : (⟨S2x1600000, .i32⟩ : BufTy).Contents (Elt F))
    (W1 : (⟨S128x128, .f32⟩ : BufTy).Contents (Elt F)) (B1 : (⟨S1x128, .f32⟩ : BufTy).Contents (Elt F))
    (W2 : (⟨S128x128, .f32⟩ : BufTy).Contents (Elt F)) (B2 : (⟨S1x128, .f32⟩ : BufTy).Contents (Elt F)) :
    (⟨S100000x128, .f32⟩ : BufTy).Contents (Elt F) :=
  biased (aggregate (hidden (aggregate (project x W1) (sources ei) (targets ei) (edgeWeight (sources ei) (targets ei)))
      B1 W2) (sources ei) (targets ei) (edgeWeight (sources ei) (targets ei))) B2

end Cert.Gcn

end
-- ==== Proof.Region0.lean ====
/-
  The first kernel launch: a dense product computed in blocks of 2000 rows.

  The launch has 50 grid points.  Point t reads rows 2000·t … 2000·t + 1999 of the left factor and the whole right
  factor, multiplies them (the operands' change of float format is the identity on extended reals) and writes the
  product into the same rows of the output.  The product of a block of rows with a matrix is the block of rows of the
  whole product, and the 50 blocks cover the output, so after the launch the output array is the whole product.
-/
import proofs.«165917_j11570641895933_1_alg».proof.Proof.Gen.KernelIdeal.Frame
import proofs.«165917_j11570641895933_1_alg».proof.Proof.Gen.ReferenceIdeal
import proofs.«165917_j11570641895933_1_alg».proof.Proof.LibBlockOfWhole
import proofs.«165917_j11570641895933_1_alg».proof.Proof.LibNormDecoderBlock
import proofs.«165917_j11570641895933_1_alg».proof.Proof.GcnSpec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.Blocks Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Block t ends inside the array. -/
theorem start_le (t : Fin cfg0.N) : t.val * 2000 + 2000 ≤ 100000 := by
  have h : t.val < 50 := (N_0 ▸ t.isLt : t.val < 50)
  omega

/-- Over the grid, window 0 sits at block t of the rows and at the origin of the columns. -/
theorem idx0 : ∀ t : Fin cfg0.N, win0_0.index t (0 : Fin 2) = t.val ∧ win0_0.index t (1 : Fin 2) = 0 :=
  (by decide +kernel : ∀ t : Fin grid0.N, _)

/-- Reading an array through window 0 at point t takes its block of rows. -/
theorem read0 (t : Fin cfg0.N) (G : S100000x128.Idx → EReal) :
    ((cfg0.win 0).blk t).view.read (Elt Ideal) G = rowBlk (R := 2000) (N := 100000) (C := 128) (t.val * 2000) (start_le t) G := by
  funext y
  show G (((cfg0.win 0).blk t).view.emb y) = G (shiftRow (t.val * 2000) (start_le t) y)
  refine congrArg G (funext fun a => Fin.ext ?_)
  match a with
  | ⟨0, _⟩ => show win0_0.index t (0 : Fin 2) * 2000 + 1 * (y 0).val = t.val * 2000 + (y 0).val; rw [(idx0 t).1]; omega
  | ⟨1, _⟩ => show win0_0.index t (1 : Fin 2) * 128 + 1 * (y 1).val = (y 1).val; rw [(idx0 t).2]; omega

/-- Over the grid, window 1 stays at the origin. -/
theorem idx1 : ∀ t : Fin cfg0.N, win0_1.index t (0 : Fin 2) = 0 ∧ win0_1.index t (1 : Fin 2) = 0 :=
  (by decide +kernel : ∀ t : Fin grid0.N, _)

/-- Reading an array through window 1 takes the whole array. -/
theorem read1 (t : Fin cfg0.N) (G : S128x128.Idx → EReal) :
    ((cfg0.win 1).blk t).view.read (Elt Ideal) G = G := by
  funext y
  show G (((cfg0.win 1).blk t).view.emb y) = G y
  refine congrArg G (funext fun a => Fin.ext ?_)
  match a with
  | ⟨0, _⟩ => show win0_1.index t (0 : Fin 2) * 128 + 1 * (y 0).val = (y 0).val; rw [(idx1 t).1]; omega
  | ⟨1, _⟩ => show win0_1.index t (1 : Fin 2) * 128 + 1 * (y 1).val = (y 1).val; rw [(idx1 t).2]; omega

/-- Over the grid, window 2 sits at block t of the rows and at the origin of the columns. -/
theorem idx2 : ∀ t : Fin cfg0.N, win0_2.index t (0 : Fin 2) = t.val ∧ win0_2.index t (1 : Fin 2) = 0 :=
  (by decide +kernel : ∀ t : Fin grid0.N, _)

/-- Reading an array through window 2 at point t takes its block of rows. -/
theorem read2 (t : Fin cfg0.N) (G : S100000x128.Idx → EReal) :
    ((cfg0.win 2).blk t).view.read (Elt Ideal) G = rowBlk (R := 2000) (N := 100000) (C := 128) (t.val * 2000) (start_le t) G := by
  funext y
  show G (((cfg0.win 2).blk t).view.emb y) = G (shiftRow (t.val * 2000) (start_le t) y)
  refine congrArg G (funext fun a => Fin.ext ?_)
  match a with
  | ⟨0, _⟩ => show win0_2.index t (0 : Fin 2) * 2000 + 1 * (y 0).val = t.val * 2000 + (y 0).val; rw [(idx2 t).1]; omega
  | ⟨1, _⟩ => show win0_2.index t (1 : Fin 2) * 128 + 1 * (y 1).val = (y 1).val; rw [(idx2 t).2]; omega

/-- The body on a block of rows: the block of rows of the whole product. -/
theorem body_rows (o : Nat) (h : o + 2000 ≤ 100000) (X : FVec Ideal S100000x128 .f32) (W : FVec Ideal S128x128 .f32) :
    k0_pay1 (F := Ideal) (rowBlk (R := 2000) (N := 100000) (C := 128) o h X) W = rowBlk o h (project (F := Ideal) X W) :=
  matmul_truncf_rowBlk o h dot_S2000x128_S128x128_S2000x128_1_0_0_1_n_n rfl
    Cert.ReferenceIdeal.dot_S100000x128_S128x128_S100000x128_1_0_0_1_n_n rfl bitsLt_bf16_f32 bitsLt_bf16_f32 X W

/-- What point t writes back is block t of the whole product of the arrays the launch finds. -/
theorem flushed_eq (c : Dev nD) (t : Fin cfg0.N) :
    (dat0 (F := Ideal) V c).flushed 2 t
      = ((cfg0.win 2).blk t).view.read (Elt Ideal) (project (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  have e0 : (iblk0 V c 0 t : S2000x128.Idx → EReal) = rowBlk (R := 2000) (N := 100000) (C := 128) (t.val * 2000) (start_le t) (V c main_arg0) :=
    read0 t (V c main_arg0)
  have e1 : (iblk0 V c 1 t : S128x128.Idx → EReal) = V c main_arg2 := read1 t (V c main_arg2)
  rw [read2 t]
  funext y
  show k0_pay1 (F := Ideal) (iblk0 V c 0 t) (iblk0 V c 1 t) y = _
  rw [e0, e1]
  exact congrFun (body_rows _ (start_le t) (V c main_arg0) (V c main_arg2)) y

/-- An index of the output is in point t's block iff its coordinates are in the block's ranges. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the output is in some point's block: the point of its row's block. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [(idx2 t).1, ht]; omega
  | ⟨1, _⟩ => show win0_2.index t (1 : Fin 2) * 128 ≤ (i 1).val ∧ (i 1).val < win0_2.index t (1 : Fin 2) * 128 + 128; rw [(idx2 t).2]; omega

/-- After the launch the output array is the whole product of the arrays the launch found. -/
theorem result (c : Dev nD) : (dat0 (F := Ideal) V c).arrAt 2 cfg0.N = project (F := Ideal) (V c main_arg0) (V c main_arg2) :=
  (dat0 V c).arrAt_eq_of_cover 2 (project (F := Ideal) (V c main_arg0) (V c main_arg2)) (fun t _ => flushed_eq V c t) cover

end Cert.KernelIdeal.Region0

end
-- ==== Proof.Region1.lean ====
/-
  The second kernel launch: bias, maximum with zero and a dense product, in blocks of 2000 rows.

  Point t of the 50 reads rows 2000·t … 2000·t + 1999 of the aggregated features, the bias as a one-row matrix and the
  whole weight matrix; it adds the bias to every row, joins with zero, multiplies by the weights and writes the rows
  back in place.  Each of these steps acts on every row by itself, so the block of the result is the result on the
  block; the 50 blocks cover the output, which therefore ends as the whole-array layer.
-/
import proofs.«165917_j11570641895933_1_alg».proof.Proof.Gen.KernelIdeal.Frame
import proofs.«165917_j11570641895933_1_alg».proof.Proof.Gen.ReferenceIdeal
import proofs.«165917_j11570641895933_1_alg».proof.Proof.LibBlockOfWhole
import proofs.«165917_j11570641895933_1_alg».proof.Proof.LibNormDecoderBlock
import proofs.«165917_j11570641895933_1_alg».proof.Proof.GcnSpec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.Blocks Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Block t ends inside the array. -/
theorem start_le (t : Fin cfg1.N) : t.val * 2000 + 2000 ≤ 100000 := by
  have h : t.val < 50 := (N_1 ▸ t.isLt : t.val < 50)
  omega

/-- Over the grid, window 0 sits at block t of the rows and at the origin of the columns. -/
theorem idx0 : ∀ t : Fin cfg1.N, win1_0.index t (0 : Fin 2) = t.val ∧ win1_0.index t (1 : Fin 2) = 0 :=
  (by decide +kernel : ∀ t : Fin grid1.N, _)

/-- Reading an array through window 0 at point t takes its block of rows. -/
theorem read0 (t : Fin cfg1.N) (G : S100000x128.Idx → EReal) :
    ((cfg1.win 0).blk t).view.read (Elt Ideal) G = rowBlk (R := 2000) (N := 100000) (C := 128) (t.val * 2000) (start_le t) G := by
  funext y
  show G (((cfg1.win 0).blk t).view.emb y) = G (shiftRow (t.val * 2000) (start_le t) y)
  refine congrArg G (funext fun a => Fin.ext ?_)
  match a with
  | ⟨0, _⟩ => show win1_0.index t (0 : Fin 2) * 2000 + 1 * (y 0).val = t.val * 2000 + (y 0).val; rw [(idx0 t).1]; omega
  | ⟨1, _⟩ => show win1_0.index t (1 : Fin 2) * 128 + 1 * (y 1).val = (y 1).val; rw [(idx0 t).2]; omega

/-- Over the grid, window 1 stays at the origin. -/
theorem idx1 : ∀ t : Fin cfg1.N, win1_1.index t (0 : Fin 2) = 0 ∧ win1_1.index t (1 : Fin 2) = 0 :=
  (by decide +kernel : ∀ t : Fin grid1.N, _)

/-- Reading an array through window 1 takes the whole array. -/
theorem read1 (t : Fin cfg1.N) (G : S1x128.Idx → EReal) :
    ((cfg1.win 1).blk t).view.read (Elt Ideal) G = G := by
  funext y
  show G (((cfg1.win 1).blk t).view.emb y) = G y
  refine congrArg G (funext fun a => Fin.ext ?_)
  match a with
  | ⟨0, _⟩ => show win1_1.index t (0 : Fin 2) * 1 + 1 * (y 0).val = (y 0).val; rw [(idx1 t).1]; omega
  | ⟨1, _⟩ => show win1_1.index t (1 : Fin 2) * 128 + 1 * (y 1).val = (y 1).val; rw [(idx1 t).2]; omega

/-- Over the grid, window 2 stays at the origin. -/
theorem idx2 : ∀ t : Fin cfg1.N, win1_2.index t (0 : Fin 2) = 0 ∧ win1_2.index t (1 : Fin 2) = 0 :=
  (by decide +kernel : ∀ t : Fin grid1.N, _)

/-- Reading an array through window 2 takes the whole array. -/
theorem read2 (t : Fin cfg1.N) (G : S128x128.Idx → EReal) :
    ((cfg1.win 2).blk t).view.read (Elt Ideal) G = G := by
  funext y
  show G (((cfg1.win 2).blk t).view.emb y) = G y
  refine congrArg G (funext fun a => Fin.ext ?_)
  match a with
  | ⟨0, _⟩ => show win1_2.index t (0 : Fin 2) * 128 + 1 * (y 0).val = (y 0).val; rw [(idx2 t).1]; omega
  | ⟨1, _⟩ => show win1_2.index t (1 : Fin 2) * 128 + 1 * (y 1).val = (y 1).val; rw [(idx2 t).2]; omega

/-- Over the grid, window 3 sits at block t of the rows and at the origin of the columns. -/
theorem idx3 : ∀ t : Fin cfg1.N, win1_3.index t (0 : Fin 2) = t.val ∧ win1_3.index t (1 : Fin 2) = 0 :=
  (by decide +kernel : ∀ t : Fin grid1.N, _)

/-- Reading an array through window 3 at point t takes its block of rows. -/
theorem read3 (t : Fin cfg1.N) (G : S100000x128.Idx → EReal) :
    ((cfg1.win 3).blk t).view.read (Elt Ideal) G = rowBlk (R := 2000) (N := 100000) (C := 128) (t.val * 2000) (start_le t) G := by
  funext y
  show G (((cfg1.win 3).blk t).view.emb y) = G (shiftRow (t.val * 2000) (start_le t) y)
  refine congrArg G (funext fun a => Fin.ext ?_)
  match a with
  | ⟨0, _⟩ => show win1_3.index t (0 : Fin 2) * 2000 + 1 * (y 0).val = t.val * 2000 + (y 0).val; rw [(idx3 t).1]; omega
  | ⟨1, _⟩ => show win1_3.index t (1 : Fin 2) * 128 + 1 * (y 1).val = (y 1).val; rw [(idx3 t).2]; omega

/-- The body on a block of rows: the block of rows of the whole-array layer. -/
theorem body_rows (o : Nat) (h : o + 2000 ≤ 100000) (A : FVec Ideal S100000x128 .f32) (B : FVec Ideal S1x128 .f32)
    (W : FVec Ideal S128x128 .f32) :
    k1_pay1 (F := Ideal) (rowBlk (R := 2000) (N := 100000) (C := 128) o h A) B W = rowBlk o h (hidden (F := Ideal) A B W) := by
  unfold k1_pay1 Cert.Gcn.hidden Cert.Gcn.biased
  dsimp only
  rw [shapeCast_self, shapeCast_self]
  exact reluDense_rowBlk o h A B W 0x00000000#32 _ _ _ dot_S2000x128_S128x128_S2000x128_1_0_0_1_n_n rfl
    Cert.ReferenceIdeal.dot_S100000x128_S128x128_S100000x128_1_0_0_1_n_n rfl _

/-- What point t writes back is block t of the whole-array layer of the arrays the launch finds. -/
theorem flushed_eq (c : Dev nD) (t : Fin cfg1.N) :
    (dat1 (F := Ideal) V c).flushed 3 t
      = ((cfg1.win 3).blk t).view.read (Elt Ideal) (hidden (F := Ideal) (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  have e0 : (iblk1 V c 0 t : S2000x128.Idx → EReal) = rowBlk (R := 2000) (N := 100000) (C := 128) (t.val * 2000) (start_le t) (V c main_v43) :=
    read0 t (V c main_v43)
  have e1 : (iblk1 V c 1 t : S1x128.Idx → EReal) = V c main_v44 := read1 t (V c main_v44)
  have e2 : (iblk1 V c 2 t : S128x128.Idx → EReal) = V c main_arg4 := read2 t (V c main_arg4)
  rw [read3 t]
  funext y
  show k1_pay1 (F := Ideal) (iblk1 V c 0 t) (iblk1 V c 1 t) (iblk1 V c 2 t) y = _
  rw [e0, e1, e2]
  exact congrFun (body_rows _ (start_le t) (V c main_v43) (V c main_v44) (V c main_arg4)) y

/-- An index of the output is in point t's block iff its coordinates are in the block's ranges. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v45).slice (win1_3.rect t)).set ↔ _
  rw [View.set_slice_whole, Rect.mem_set_unit]
  exact Iff.rfl

/-- Every index of the output is in some point's block: the point of its row's block. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [(idx3 t).1, ht]; omega
  | ⟨1, _⟩ => show win1_3.index t (1 : Fin 2) * 128 ≤ (i 1).val ∧ (i 1).val < win1_3.index t (1 : Fin 2) * 128 + 128; rw [(idx3 t).2]; omega

/-- After the launch the output array is the whole-array layer of the arrays the launch found. -/
theorem result (c : Dev nD) : (dat1 (F := Ideal) V c).arrAt 3 cfg1.N = hidden (F := Ideal) (V c main_v43) (V c main_v44) (V c main_arg4) :=
  (dat1 V c).arrAt_eq_of_cover 3 (hidden (F := Ideal) (V c main_v43) (V c main_v44) (V c main_arg4)) (fun t _ => flushed_eq V c t) cover

end Cert.KernelIdeal.Region1

end
-- ==== Proof.Region2.lean ====
/-
  The third kernel launch: bias, row normalisation, decoder and log-softmax, in blocks of 2000 rows.

  Point t of the 50 reads rows 2000·t … 2000·t + 1999 of the aggregated features, the bias as a one-row matrix, the
  decoder's weights and the decoder's bias as a one-row matrix.  It adds the bias, divides every row by its Euclidean
  length plus a small constant and writes these embeddings back in place; it multiplies them by the decoder's weights,
  adds the decoder's bias, and writes back the logarithm of the softmax of every row.  An entry of either result
  depends on one row only, so the block of the result is the result on the block; the 50 blocks cover both outputs,
  which therefore end as the whole-array embeddings and log-probabilities.
-/
import proofs.«165917_j11570641895933_1_alg».proof.Proof.Gen.KernelIdeal.Frame
import proofs.«165917_j11570641895933_1_alg».proof.Proof.Gen.ReferenceIdeal
import proofs.«165917_j11570641895933_1_alg».proof.Proof.LibBlockOfWhole
import proofs.«165917_j11570641895933_1_alg».proof.Proof.LibNormDecoderBlock
import proofs.«165917_j11570641895933_1_alg».proof.Proof.GcnSpec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Cert.Blocks Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Block t ends inside the array. -/
theorem start_le (t : Fin cfg2.N) : t.val * 2000 + 2000 ≤ 100000 := by
  have h : t.val < 50 := (N_2 ▸ t.isLt : t.val < 50)
  omega

/-- Over the grid, window 0 sits at block t of the rows and at the origin of the columns. -/
theorem idx0 : ∀ t : Fin cfg2.N, win2_0.index t (0 : Fin 2) = t.val ∧ win2_0.index t (1 : Fin 2) = 0 :=
  (by decide +kernel : ∀ t : Fin grid2.N, _)

/-- Reading an array through window 0 at point t takes its block of rows. -/
theorem read0 (t : Fin cfg2.N) (G : S100000x128.Idx → EReal) :
    ((cfg2.win 0).blk t).view.read (Elt Ideal) G = rowBlk (R := 2000) (N := 100000) (C := 128) (t.val * 2000) (start_le t) G := by
  funext y
  show G (((cfg2.win 0).blk t).view.emb y) = G (shiftRow (t.val * 2000) (start_le t) y)
  refine congrArg G (funext fun a => Fin.ext ?_)
  match a with
  | ⟨0, _⟩ => show win2_0.index t (0 : Fin 2) * 2000 + 1 * (y 0).val = t.val * 2000 + (y 0).val; rw [(idx0 t).1]; omega
  | ⟨1, _⟩ => show win2_0.index t (1 : Fin 2) * 128 + 1 * (y 1).val = (y 1).val; rw [(idx0 t).2]; omega

/-- Over the grid, window 1 stays at the origin. -/
theorem idx1 : ∀ t : Fin cfg2.N, win2_1.index t (0 : Fin 2) = 0 ∧ win2_1.index t (1 : Fin 2) = 0 :=
  (by decide +kernel : ∀ t : Fin grid2.N, _)

/-- Reading an array through window 1 takes the whole array. -/
theorem read1 (t : Fin cfg2.N) (G : S1x128.Idx → EReal) :
    ((cfg2.win 1).blk t).view.read (Elt Ideal) G = G := by
  funext y
  show G (((cfg2.win 1).blk t).view.emb y) = G y
  refine congrArg G (funext fun a => Fin.ext ?_)
  match a with
  | ⟨0, _⟩ => show win2_1.index t (0 : Fin 2) * 1 + 1 * (y 0).val = (y 0).val; rw [(idx1 t).1]; omega
  | ⟨1, _⟩ => show win2_1.index t (1 : Fin 2) * 128 + 1 * (y 1).val = (y 1).val; rw [(idx1 t).2]; omega

/-- Over the grid, window 2 stays at the origin. -/
theorem idx2 : ∀ t : Fin cfg2.N, win2_2.index t (0 : Fin 2) = 0 ∧ win2_2.index t (1 : Fin 2) = 0 :=
  (by decide +kernel : ∀ t : Fin grid2.N, _)

/-- Reading an array through window 2 takes the whole array. -/
theorem read2 (t : Fin cfg2.N) (G : S128x64.Idx → EReal) :
    ((cfg2.win 2).blk t).view.read (Elt Ideal) G = G := by
  funext y
  show G (((cfg2.win 2).blk t).view.emb y) = G y
  refine congrArg G (funext fun a => Fin.ext ?_)
  match a with
  | ⟨0, _⟩ => show win2_2.index t (0 : Fin 2) * 128 + 1 * (y 0).val = (y 0).val; rw [(idx2 t).1]; omega
  | ⟨1, _⟩ => show win2_2.index t (1 : Fin 2) * 64 + 1 * (y 1).val = (y 1).val; rw [(idx2 t).2]; omega

/-- Over the grid, window 3 stays at the origin. -/
theorem idx3 : ∀ t : Fin cfg2.N, win2_3.index t (0 : Fin 2) = 0 ∧ win2_3.index t (1 : Fin 2) = 0 :=
  (by decide +kernel : ∀ t : Fin grid2.N, _)

/-- Reading an array through window 3 takes the whole array. -/
theorem read3 (t : Fin cfg2.N) (G : S1x64.Idx → EReal) :
    ((cfg2.win 3).blk t).view.read (Elt Ideal) G = G := by
  funext y
  show G (((cfg2.win 3).blk t).view.emb y) = G y
  refine congrArg G (funext fun a => Fin.ext ?_)
  match a with
  | ⟨0, _⟩ => show win2_3.index t (0 : Fin 2) * 1 + 1 * (y 0).val = (y 0).val; rw [(idx3 t).1]; omega
  | ⟨1, _⟩ => show win2_3.index t (1 : Fin 2) * 64 + 1 * (y 1).val = (y 1).val; rw [(idx3 t).2]; omega

/-- Over the grid, window 4 sits at block t of the rows and at the origin of the columns. -/
theorem idx4 : ∀ t : Fin cfg2.N, win2_4.index t (0 : Fin 2) = t.val ∧ win2_4.index t (1 : Fin 2) = 0 :=
  (by decide +kernel : ∀ t : Fin grid2.N, _)

/-- Reading an array through window 4 at point t takes its block of rows. -/
theorem read4 (t : Fin cfg2.N) (G : S100000x128.Idx → EReal) :
    ((cfg2.win 4).blk t).view.read (Elt Ideal) G = rowBlk (R := 2000) (N := 100000) (C := 128) (t.val * 2000) (start_le t) G := by
  funext y
  show G (((cfg2.win 4).blk t).view.emb y) = G (shiftRow (t.val * 2000) (start_le t) y)
  refine congrArg G (funext fun a => Fin.ext ?_)
  match a with
  | ⟨0, _⟩ => show win2_4.index t (0 : Fin 2) * 2000 + 1 * (y 0).val = t.val * 2000 + (y 0).val; rw [(idx4 t).1]; omega
  | ⟨1, _⟩ => show win2_4.index t (1 : Fin 2) * 128 + 1 * (y 1).val = (y 1).val; rw [(idx4 t).2]; omega

/-- Over the grid, window 5 sits at block t of the rows and at the origin of the columns. -/
theorem idx5 : ∀ t : Fin cfg2.N, win2_5.index t (0 : Fin 2) = t.val ∧ win2_5.index t (1 : Fin 2) = 0 :=
  (by decide +kernel : ∀ t : Fin grid2.N, _)

/-- Reading an array through window 5 at point t takes its block of rows. -/
theorem read5 (t : Fin cfg2.N) (G : S100000x64.Idx → EReal) :
    ((cfg2.win 5).blk t).view.read (Elt Ideal) G = rowBlk (R := 2000) (N := 100000) (C := 64) (t.val * 2000) (start_le t) G := by
  funext y
  show G (((cfg2.win 5).blk t).view.emb y) = G (shiftRow (t.val * 2000) (start_le t) y)
  refine congrArg G (funext fun a => Fin.ext ?_)
  match a with
  | ⟨0, _⟩ => show win2_5.index t (0 : Fin 2) * 2000 + 1 * (y 0).val = t.val * 2000 + (y 0).val; rw [(idx5 t).1]; omega
  | ⟨1, _⟩ => show win2_5.index t (1 : Fin 2) * 64 + 1 * (y 1).val = (y 1).val; rw [(idx5 t).2]; omega

/-- The first payload on a block of rows: the block of rows of the whole-array embeddings. -/
theorem embed_rows (o : Nat) (h : o + 2000 ≤ 100000) (A : FVec Ideal S100000x128 .f32) (B : FVec Ideal S1x128 .f32) :
    k2_pay1 (F := Ideal) (rowBlk (R := 2000) (N := 100000) (C := 128) o h A) B = rowBlk o h (embedding (F := Ideal) A B) := by
  unfold k2_pay1 Cert.Gcn.embedding Cert.Gcn.normalized Cert.Gcn.biased
  dsimp only
  rw [shapeCast_self, shapeCast_self]
  exact normalize_rowBlk o h A B 0x2B8CBCCC#32 _ _ _ _ _ _ _ _ (by decide) _ _ _ _

/-- The second payload on a block of rows: the block of rows of the whole-array log-probabilities. -/
theorem decode_rows (o : Nat) (h : o + 2000 ≤ 100000) (A : FVec Ideal S100000x128 .f32) (B : FVec Ideal S1x128 .f32)
    (Wd : FVec Ideal S128x64 .f32) (Bd : FVec Ideal S1x64 .f32) :
    k2_pay2 (F := Ideal) (rowBlk (R := 2000) (N := 100000) (C := 128) o h A) B Wd Bd = rowBlk o h (logSoftmax (F := Ideal) (logits (F := Ideal) (embedding (F := Ideal) A B) Wd Bd)) := by
  unfold k2_pay2
  dsimp only
  rw [embed_rows o h A B, shapeCast_self]
  unfold Cert.Gcn.logSoftmax Cert.Gcn.rowMaxima Cert.Gcn.logits
  rw [logits_rowBlk o h dot_S2000x128_S128x64_S2000x64_1_0_0_1_n_n rfl
    Cert.ReferenceIdeal.dot_S100000x128_S128x64_S100000x64_1_0_0_1_n_n rfl _ _ (embedding (F := Ideal) A B) Wd Bd _
    Cert.ReferenceIdeal.Facts₀.bcast_S1x64_S100000x64_0_1]
  exact logSoftmax_rowBlk o h _ _ _ _ _ _ _ _ (by decide) _ _ _ _

/-- What point t writes back to the embeddings is block t of the whole-array embeddings. -/
theorem flushed_embedding (c : Dev nD) (t : Fin cfg2.N) :
    (dat2 (F := Ideal) V c).flushed 4 t
      = ((cfg2.win 4).blk t).view.read (Elt Ideal) (embedding (F := Ideal) (V c main_v58) (V c main_v59)) := by
  show (cfg2.win 4).cut (grid2.coords t) ((dat2 V c).after 4 t) = _
  rw [after2_4]
  unfold out2_4
  rw [View.canon_unit_zero hz]
  simp only [View.ld_unit_zero (S := S2000x128) hz, View.ld_unit_zero (S := S1x128) hz]
  have e0 : (iblk2 V c 0 t : S2000x128.Idx → EReal) = rowBlk (R := 2000) (N := 100000) (C := 128) (t.val * 2000) (start_le t) (V c main_v58) :=
    read0 t (V c main_v58)
  have e1 : (iblk2 V c 1 t : S1x128.Idx → EReal) = V c main_v59 := read1 t (V c main_v59)
  rw [read4 t]
  funext y
  show k2_pay1 (F := Ideal) (iblk2 V c 0 t) (iblk2 V c 1 t) y = _
  rw [e0, e1]
  exact congrFun (embed_rows _ (start_le t) (V c main_v58) (V c main_v59)) y

/-- What point t writes back to the log-probabilities is block t of the whole-array log-probabilities. -/
theorem flushed_logProbs (c : Dev nD) (t : Fin cfg2.N) :
    (dat2 (F := Ideal) V c).flushed 5 t
      = ((cfg2.win 5).blk t).view.read (Elt Ideal)
          (logSoftmax (F := Ideal) (logits (F := Ideal) (embedding (F := Ideal) (V c main_v58) (V c main_v59)) (V c main_arg6) (V c main_v60))) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz, View.ld_unit_zero (S := S128x64) hz,
    View.ld_unit_zero (S := S1x64) hz]
  have e0 : (iblk2 V c 0 t : S2000x128.Idx → EReal) = rowBlk (R := 2000) (N := 100000) (C := 128) (t.val * 2000) (start_le t) (V c main_v58) :=
    read0 t (V c main_v58)
  have e1 : (iblk2 V c 1 t : S1x128.Idx → EReal) = V c main_v59 := read1 t (V c main_v59)
  have e2 : (iblk2 V c 2 t : S128x64.Idx → EReal) = V c main_arg6 := read2 t (V c main_arg6)
  have e3 : (iblk2 V c 3 t : S1x64.Idx → EReal) = V c main_v60 := read3 t (V c main_v60)
  rw [read5 t]
  funext y
  show k2_pay2 (F := Ideal) (iblk2 V c 0 t) (iblk2 V c 1 t) (iblk2 V c 2 t) (iblk2 V c 3 t) y = _
  rw [e0, e1, e2, e3]
  exact congrFun (decode_rows _ (start_le t) (V c main_v58) (V c main_v59) (V c main_arg6) (V c main_v60)) y

/-- An index of the output is in point t's block iff its coordinates are in the block's ranges. -/
theorem mem_blk_embedding (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v61_0).slice (win2_4.rect t)).set ↔ _
  rw [View.set_slice_whole, Rect.mem_set_unit]
  exact Iff.rfl

/-- Every index of the output is in some point's block: the point of its row's block. -/
theorem cover_embedding (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  have ht : t.val = (i 0).val / 2000 := rfl
  refine ⟨t, flush2_4 t, ?_⟩
  rw [mem_blk_embedding]
  intro a
  match a with
  | ⟨0, _⟩ => show win2_4.index t (0 : Fin 2) * 2000 ≤ (i 0).val ∧ (i 0).val < win2_4.index t (0 : Fin 2) * 2000 + 2000; rw [(idx4 t).1, ht]; omega
  | ⟨1, _⟩ => show win2_4.index t (1 : Fin 2) * 128 ≤ (i 1).val ∧ (i 1).val < win2_4.index t (1 : Fin 2) * 128 + 128; rw [(idx4 t).2]; omega

/-- An index of the output is in point t's block iff its coordinates are in the block's ranges. -/
theorem mem_blk_logProbs (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v61_1).slice (win2_5.rect t)).set ↔ _
  rw [View.set_slice_whole, Rect.mem_set_unit]
  exact Iff.rfl

/-- Every index of the output is in some point's block: the point of its row's block. -/
theorem cover_logProbs (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  have ht : t.val = (i 0).val / 2000 := rfl
  refine ⟨t, flush2_5 t, ?_⟩
  rw [mem_blk_logProbs]
  intro a
  match a with
  | ⟨0, _⟩ => show win2_5.index t (0 : Fin 2) * 2000 ≤ (i 0).val ∧ (i 0).val < win2_5.index t (0 : Fin 2) * 2000 + 2000; rw [(idx5 t).1, ht]; omega
  | ⟨1, _⟩ => show win2_5.index t (1 : Fin 2) * 64 ≤ (i 1).val ∧ (i 1).val < win2_5.index t (1 : Fin 2) * 64 + 64; rw [(idx5 t).2]; omega

/-- After the launch the first output array is the whole-array embeddings of the arrays the launch found. -/
theorem result_embedding (c : Dev nD) :
    (dat2 (F := Ideal) V c).arrAt 4 cfg2.N = embedding (F := Ideal) (V c main_v58) (V c main_v59) :=
  (dat2 V c).arrAt_eq_of_cover 4 (embedding (F := Ideal) (V c main_v58) (V c main_v59)) (fun t _ => flushed_embedding V c t) cover_embedding

/-- After the launch the second output array is the whole-array log-probabilities of the arrays the launch found. -/
theorem result_logProbs (c : Dev nD) :
    (dat2 (F := Ideal) V c).arrAt 5 cfg2.N
      = logSoftmax (F := Ideal) (logits (F := Ideal) (embedding (F := Ideal) (V c main_v58) (V c main_v59)) (V c main_arg6) (V c main_v60)) :=
  (dat2 V c).arrAt_eq_of_cover 5 (logSoftmax (F := Ideal) (logits (F := Ideal) (embedding (F := Ideal) (V c main_v58) (V c main_v59)) (V c main_arg6) (V c main_v60)))
    (fun t _ => flushed_logProbs V c t) cover_logProbs

end Cert.KernelIdeal.Region2

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.KernelHost.lean ====
/-
  The idealized kernel's host stretches, read over an arbitrary valuation of the buffers.

  Between its three kernel launches the program runs the same whole-array operations as the reference: the edge
  bookkeeping before the first launch, one aggregation step (and a bias vector laid out as a row) before each of the
  other two.  Each stretch's outputs are the named whole-array steps applied to what the stretch reads; the buffers a
  stretch does not write keep their contents.  The operations are, one for one, those the steps are spelt with; the
  two programs' records of gather and scatter dimensions are the same records.
-/
import proofs.«165917_j11570641895933_1_alg».proof.Proof.Gen.KernelIdeal.Launch
import proofs.«165917_j11570641895933_1_alg».proof.Proof.Gen.ReferenceIdeal
import proofs.«165917_j11570641895933_1_alg».proof.Proof.GcnSpec
import proofs.«165917_j11570641895933_1_alg».proof.Proof.LibTypedRef
import Idealize.ShloMosaic.Lib.StableHlo.Run

noncomputable section

namespace Cert.KernelIdeal.HostStretches

open Cert.KernelIdeal Cert.KernelIdeal.Gen Idealize.ShloMosaic Idealize.ShloMosaic.TcCoe Idealize.SL.Sem Idealize.ShloMosaic.StableHlo
open Cert.Gcn Cert.Lib.TypedRef
open Cert.KernelIdeal.Facts₀ Cert.KernelIdeal.Facts

variable {F : FTy → Type} [FloatOps F]
variable (W : Valuation τ sig (Elt F))

attribute [local irreducible] Host.gather Host.scatterAdd Host.reduce Host.reduceAdd

/-! ## Before the first launch: the edge bookkeeping -/

theorem pre_sources : after hostOps0_2 (after hostOps0_1 (after hostOps0 W)) (Proc.devRef .tc main_v3) = sources (W (Proc.devRef .tc main_arg1)) := by
  after_results_simp; rfl
theorem pre_targets : after hostOps0_2 (after hostOps0_1 (after hostOps0 W)) (Proc.devRef .tc main_v6) = targets (W (Proc.devRef .tc main_arg1)) := by
  after_results_simp; rfl
theorem pre_weight : after hostOps0_2 (after hostOps0_1 (after hostOps0 W)) (Proc.devRef .tc main_v29)
    = edgeWeight (sources (W (Proc.devRef .tc main_arg1))) (targets (W (Proc.devRef .tc main_arg1))) := by
  after_results_simp
  simp only [ofBuf_toBuf, toBuf_ofBuf]
  rfl
theorem pre_keep_arg0 : after hostOps0_2 (after hostOps0_1 (after hostOps0 W)) (Proc.devRef .tc main_arg0) = W (Proc.devRef .tc main_arg0) := by after_results_simp
theorem pre_keep_arg2 : after hostOps0_2 (after hostOps0_1 (after hostOps0 W)) (Proc.devRef .tc main_arg2) = W (Proc.devRef .tc main_arg2) := by after_results_simp
theorem pre_keep_arg3 : after hostOps0_2 (after hostOps0_1 (after hostOps0 W)) (Proc.devRef .tc main_arg3) = W (Proc.devRef .tc main_arg3) := by after_results_simp
theorem pre_keep_arg4 : after hostOps0_2 (after hostOps0_1 (after hostOps0 W)) (Proc.devRef .tc main_arg4) = W (Proc.devRef .tc main_arg4) := by after_results_simp
theorem pre_keep_arg5 : after hostOps0_2 (after hostOps0_1 (after hostOps0 W)) (Proc.devRef .tc main_arg5) = W (Proc.devRef .tc main_arg5) := by after_results_simp
theorem pre_keep_arg6 : after hostOps0_2 (after hostOps0_1 (after hostOps0 W)) (Proc.devRef .tc main_arg6) = W (Proc.devRef .tc main_arg6) := by after_results_simp
theorem pre_keep_arg7 : after hostOps0_2 (after hostOps0_1 (after hostOps0 W)) (Proc.devRef .tc main_arg7) = W (Proc.devRef .tc main_arg7) := by after_results_simp

/-! ## Between the first and the second launch -/

theorem mid1_aggregate : after hostOps1 W (Proc.devRef .tc main_v43)
    = aggregate (W (Proc.devRef .tc main_v30)) (W (Proc.devRef .tc main_v3)) (W (Proc.devRef .tc main_v6)) (W (Proc.devRef .tc main_v29)) := by
  after_results_simp; rfl
theorem mid1_bias : after hostOps1 W (Proc.devRef .tc main_v44) = shapeCast S1x128 (W (Proc.devRef .tc main_arg3)) Facts₀.shapeCasts_S128_S1x128 := by
  after_results_simp; rfl
theorem mid1_keep_v3 : after hostOps1 W (Proc.devRef .tc main_v3) = W (Proc.devRef .tc main_v3) := by after_results_simp
theorem mid1_keep_v6 : after hostOps1 W (Proc.devRef .tc main_v6) = W (Proc.devRef .tc main_v6) := by after_results_simp
theorem mid1_keep_v29 : after hostOps1 W (Proc.devRef .tc main_v29) = W (Proc.devRef .tc main_v29) := by after_results_simp
theorem mid1_keep_arg4 : after hostOps1 W (Proc.devRef .tc main_arg4) = W (Proc.devRef .tc main_arg4) := by after_results_simp
theorem mid1_keep_arg5 : after hostOps1 W (Proc.devRef .tc main_arg5) = W (Proc.devRef .tc main_arg5) := by after_results_simp
theorem mid1_keep_arg6 : after hostOps1 W (Proc.devRef .tc main_arg6) = W (Proc.devRef .tc main_arg6) := by after_results_simp
theorem mid1_keep_arg7 : after hostOps1 W (Proc.devRef .tc main_arg7) = W (Proc.devRef .tc main_arg7) := by after_results_simp

/-! ## Between the second and the third launch -/

theorem mid2_aggregate : after hostOps2 W (Proc.devRef .tc main_v58)
    = aggregate (W (Proc.devRef .tc main_v45)) (W (Proc.devRef .tc main_v3)) (W (Proc.devRef .tc main_v6)) (W (Proc.devRef .tc main_v29)) := by
  after_results_simp; rfl
theorem mid2_bias : after hostOps2 W (Proc.devRef .tc main_v59) = shapeCast S1x128 (W (Proc.devRef .tc main_arg5)) Facts₀.shapeCasts_S128_S1x128 := by
  after_results_simp; rfl
theorem mid2_decoderBias : after hostOps2 W (Proc.devRef .tc main_v60) = shapeCast S1x64 (W (Proc.devRef .tc main_arg7)) Facts₀.shapeCasts_S64_S1x64 := by
  after_results_simp; rfl
theorem mid2_keep_arg6 : after hostOps2 W (Proc.devRef .tc main_arg6) = W (Proc.devRef .tc main_arg6) := by after_results_simp

end Cert.KernelIdeal.HostStretches

end
-- ==== Proof.KernelValue.lean ====
/-
  The idealized kernel's two results as the composition of the whole-array steps.

  The buffer contents are followed from the launch memory through the program: the edge bookkeeping, the first launch
  (a dense product), an aggregation step, the second launch (bias, maximum with zero, dense product), an aggregation
  step, the third launch (bias, row normalisation, decoder, log-softmax).  At every boundary the few buffers that are
  read later are written as the named steps applied to the argument arrays; a buffer that a stretch or a launch does
  not write keeps what it held.  The bias vectors reach the launches reshaped to one-row matrices, which is the same
  row the reference builds by adding a leading axis.
-/
import proofs.«165917_j11570641895933_1_alg».proof.Proof.Region0
import proofs.«165917_j11570641895933_1_alg».proof.Proof.Region1
import proofs.«165917_j11570641895933_1_alg».proof.Proof.Region2
import proofs.«165917_j11570641895933_1_alg».proof.Proof.KernelHost

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.Gcn Cert.KernelIdeal.HostStretches
open Cert.KernelIdeal.Facts₀ Cert.KernelIdeal.Facts

variable (m : (ℓ : Loc nD τ sig) → Buf (Elt Ideal) ℓ) (ρ : Dev nD → PrngReg) (c : Dev nD)

/-! ## Entering the first launch -/

theorem at3_v3 : W3 m ρ c (Proc.devRef .tc main_v3) = (sources (F := Ideal) (m ((c.tc : Thread nD τ).loc main_arg1))) :=
  pre_sources (W0 m ρ c)
theorem at3_v6 : W3 m ρ c (Proc.devRef .tc main_v6) = (targets (F := Ideal) (m ((c.tc : Thread nD τ).loc main_arg1))) :=
  pre_targets (W0 m ρ c)
theorem at3_v29 : W3 m ρ c (Proc.devRef .tc main_v29) = (edgeWeight (F := Ideal) (sources (F := Ideal) (m ((c.tc : Thread nD τ).loc main_arg1))) (targets (F := Ideal) (m ((c.tc : Thread nD τ).loc main_arg1)))) :=
  pre_weight (W0 m ρ c)
theorem at3_arg0 : W3 m ρ c (Proc.devRef .tc main_arg0) = (m ((c.tc : Thread nD τ).loc main_arg0)) :=
  pre_keep_arg0 (W0 m ρ c)
theorem at3_arg2 : W3 m ρ c (Proc.devRef .tc main_arg2) = (m ((c.tc : Thread nD τ).loc main_arg2)) :=
  pre_keep_arg2 (W0 m ρ c)
theorem at3_arg3 : W3 m ρ c (Proc.devRef .tc main_arg3) = (m ((c.tc : Thread nD τ).loc main_arg3)) :=
  pre_keep_arg3 (W0 m ρ c)
theorem at3_arg4 : W3 m ρ c (Proc.devRef .tc main_arg4) = (m ((c.tc : Thread nD τ).loc main_arg4)) :=
  pre_keep_arg4 (W0 m ρ c)
theorem at3_arg5 : W3 m ρ c (Proc.devRef .tc main_arg5) = (m ((c.tc : Thread nD τ).loc main_arg5)) :=
  pre_keep_arg5 (W0 m ρ c)
theorem at3_arg6 : W3 m ρ c (Proc.devRef .tc main_arg6) = (m ((c.tc : Thread nD τ).loc main_arg6)) :=
  pre_keep_arg6 (W0 m ρ c)
theorem at3_arg7 : W3 m ρ c (Proc.devRef .tc main_arg7) = (m ((c.tc : Thread nD τ).loc main_arg7)) :=
  pre_keep_arg7 (W0 m ρ c)

/-! ## Leaving the first launch -/

theorem at4_v30 : W4 m ρ c (Proc.devRef .tc main_v30) = (project (F := Ideal) (m ((c.tc : Thread nD τ).loc main_arg0)) (m ((c.tc : Thread nD τ).loc main_arg2))) :=
  (W4_arr m ρ c 2).trans ((Region0.result (V3 m ρ) c).trans (congrArg₂ (project (F := Ideal)) (at3_arg0 m ρ c) (at3_arg2 m ρ c)))
theorem at4_v3 : W4 m ρ c (Proc.devRef .tc main_v3) = (sources (F := Ideal) (m ((c.tc : Thread nD τ).loc main_arg1))) :=
  (W4_of_ne m ρ c main_v3 (by decide)).trans (at3_v3 m ρ c)
theorem at4_v6 : W4 m ρ c (Proc.devRef .tc main_v6) = (targets (F := Ideal) (m ((c.tc : Thread nD τ).loc main_arg1))) :=
  (W4_of_ne m ρ c main_v6 (by decide)).trans (at3_v6 m ρ c)
theorem at4_v29 : W4 m ρ c (Proc.devRef .tc main_v29) = (edgeWeight (F := Ideal) (sources (F := Ideal) (m ((c.tc : Thread nD τ).loc main_arg1))) (targets (F := Ideal) (m ((c.tc : Thread nD τ).loc main_arg1)))) :=
  (W4_of_ne m ρ c main_v29 (by decide)).trans (at3_v29 m ρ c)
theorem at4_arg3 : W4 m ρ c (Proc.devRef .tc main_arg3) = (m ((c.tc : Thread nD τ).loc main_arg3)) :=
  (W4_of_ne m ρ c main_arg3 (by decide)).trans (at3_arg3 m ρ c)
theorem at4_arg4 : W4 m ρ c (Proc.devRef .tc main_arg4) = (m ((c.tc : Thread nD τ).loc main_arg4)) :=
  (W4_of_ne m ρ c main_arg4 (by decide)).trans (at3_arg4 m ρ c)
theorem at4_arg5 : W4 m ρ c (Proc.devRef .tc main_arg5) = (m ((c.tc : Thread nD τ).loc main_arg5)) :=
  (W4_of_ne m ρ c main_arg5 (by decide)).trans (at3_arg5 m ρ c)
theorem at4_arg6 : W4 m ρ c (Proc.devRef .tc main_arg6) = (m ((c.tc : Thread nD τ).loc main_arg6)) :=
  (W4_of_ne m ρ c main_arg6 (by decide)).trans (at3_arg6 m ρ c)
theorem at4_arg7 : W4 m ρ c (Proc.devRef .tc main_arg7) = (m ((c.tc : Thread nD τ).loc main_arg7)) :=
  (W4_of_ne m ρ c main_arg7 (by decide)).trans (at3_arg7 m ρ c)

/-! ## Entering the second launch -/

theorem at5_v43 : W5 m ρ c (Proc.devRef .tc main_v43) = (aggregate (F := Ideal) (project (F := Ideal) (m ((c.tc : Thread nD τ).loc main_arg0)) (m ((c.tc : Thread nD τ).loc main_arg2))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) :=
  (mid1_aggregate (W4 m ρ c)).trans (by rw [at4_v30, at4_v3, at4_v6, at4_v29])
theorem at5_v44 : W5 m ρ c (Proc.devRef .tc main_v44) = (shapeCast S1x128 (m ((c.tc : Thread nD τ).loc main_arg3)) Facts₀.shapeCasts_S128_S1x128) :=
  (mid1_bias (W4 m ρ c)).trans (by rw [at4_arg3])
theorem at5_v3 : W5 m ρ c (Proc.devRef .tc main_v3) = (sources (F := Ideal) (m ((c.tc : Thread nD τ).loc main_arg1))) :=
  (mid1_keep_v3 (W4 m ρ c)).trans (at4_v3 m ρ c)
theorem at5_v6 : W5 m ρ c (Proc.devRef .tc main_v6) = (targets (F := Ideal) (m ((c.tc : Thread nD τ).loc main_arg1))) :=
  (mid1_keep_v6 (W4 m ρ c)).trans (at4_v6 m ρ c)
theorem at5_v29 : W5 m ρ c (Proc.devRef .tc main_v29) = (edgeWeight (F := Ideal) (sources (F := Ideal) (m ((c.tc : Thread nD τ).loc main_arg1))) (targets (F := Ideal) (m ((c.tc : Thread nD τ).loc main_arg1)))) :=
  (mid1_keep_v29 (W4 m ρ c)).trans (at4_v29 m ρ c)
theorem at5_arg4 : W5 m ρ c (Proc.devRef .tc main_arg4) = (m ((c.tc : Thread nD τ).loc main_arg4)) :=
  (mid1_keep_arg4 (W4 m ρ c)).trans (at4_arg4 m ρ c)
theorem at5_arg5 : W5 m ρ c (Proc.devRef .tc main_arg5) = (m ((c.tc : Thread nD τ).loc main_arg5)) :=
  (mid1_keep_arg5 (W4 m ρ c)).trans (at4_arg5 m ρ c)
theorem at5_arg6 : W5 m ρ c (Proc.devRef .tc main_arg6) = (m ((c.tc : Thread nD τ).loc main_arg6)) :=
  (mid1_keep_arg6 (W4 m ρ c)).trans (at4_arg6 m ρ c)
theorem at5_arg7 : W5 m ρ c (Proc.devRef .tc main_arg7) = (m ((c.tc : Thread nD τ).loc main_arg7)) :=
  (mid1_keep_arg7 (W4 m ρ c)).trans (at4_arg7 m ρ c)

/-! ## Leaving the second launch -/

theorem at6_v45 : W6 m ρ c (Proc.devRef .tc main_v45) = (hidden (F := Ideal) (aggregate (F := Ideal) (project (F := Ideal) (m ((c.tc : Thread nD τ).loc main_arg0)) (m ((c.tc : Thread nD τ).loc main_arg2))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg3)) Facts₀.shapeCasts_S128_S1x128) (m ((c.tc : Thread nD τ).loc main_arg4))) :=
  (W6_arr m ρ c 3).trans ((Region1.result (V5 m ρ) c).trans (by
    rw [show V5 m ρ c main_v43 = _ from at5_v43 m ρ c, show V5 m ρ c main_v44 = _ from at5_v44 m ρ c,
      show V5 m ρ c main_arg4 = _ from at5_arg4 m ρ c]))
theorem at6_v3 : W6 m ρ c (Proc.devRef .tc main_v3) = (sources (F := Ideal) (m ((c.tc : Thread nD τ).loc main_arg1))) :=
  (W6_of_ne m ρ c main_v3 (by decide)).trans (at5_v3 m ρ c)
theorem at6_v6 : W6 m ρ c (Proc.devRef .tc main_v6) = (targets (F := Ideal) (m ((c.tc : Thread nD τ).loc main_arg1))) :=
  (W6_of_ne m ρ c main_v6 (by decide)).trans (at5_v6 m ρ c)
theorem at6_v29 : W6 m ρ c (Proc.devRef .tc main_v29) = (edgeWeight (F := Ideal) (sources (F := Ideal) (m ((c.tc : Thread nD τ).loc main_arg1))) (targets (F := Ideal) (m ((c.tc : Thread nD τ).loc main_arg1)))) :=
  (W6_of_ne m ρ c main_v29 (by decide)).trans (at5_v29 m ρ c)
theorem at6_arg5 : W6 m ρ c (Proc.devRef .tc main_arg5) = (m ((c.tc : Thread nD τ).loc main_arg5)) :=
  (W6_of_ne m ρ c main_arg5 (by decide)).trans (at5_arg5 m ρ c)
theorem at6_arg6 : W6 m ρ c (Proc.devRef .tc main_arg6) = (m ((c.tc : Thread nD τ).loc main_arg6)) :=
  (W6_of_ne m ρ c main_arg6 (by decide)).trans (at5_arg6 m ρ c)
theorem at6_arg7 : W6 m ρ c (Proc.devRef .tc main_arg7) = (m ((c.tc : Thread nD τ).loc main_arg7)) :=
  (W6_of_ne m ρ c main_arg7 (by decide)).trans (at5_arg7 m ρ c)

/-! ## Entering the third launch -/

theorem at7_v58 : W7 m ρ c (Proc.devRef .tc main_v58) = (aggregate (F := Ideal) (hidden (F := Ideal) (aggregate (F := Ideal) (project (F := Ideal) (m ((c.tc : Thread nD τ).loc main_arg0)) (m ((c.tc : Thread nD τ).loc main_arg2))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg3)) Facts₀.shapeCasts_S128_S1x128) (m ((c.tc : Thread nD τ).loc main_arg4))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) :=
  (mid2_aggregate (W6 m ρ c)).trans (by rw [at6_v45, at6_v3, at6_v6, at6_v29])
theorem at7_v59 : W7 m ρ c (Proc.devRef .tc main_v59) = (shapeCast S1x128 (m ((c.tc : Thread nD τ).loc main_arg5)) Facts₀.shapeCasts_S128_S1x128) :=
  (mid2_bias (W6 m ρ c)).trans (by rw [at6_arg5])
theorem at7_v60 : W7 m ρ c (Proc.devRef .tc main_v60) = (shapeCast S1x64 (m ((c.tc : Thread nD τ).loc main_arg7)) Facts₀.shapeCasts_S64_S1x64) :=
  (mid2_decoderBias (W6 m ρ c)).trans (by rw [at6_arg7])
theorem at7_arg6 : W7 m ρ c (Proc.devRef .tc main_arg6) = (m ((c.tc : Thread nD τ).loc main_arg6)) :=
  (mid2_keep_arg6 (W6 m ρ c)).trans (at6_arg6 m ρ c)

/-! ## The two results -/

/-- The embeddings the kernel returns. -/
theorem embedding_eq : W8 m ρ c (Proc.devRef .tc main_v61_0) = (embedding (F := Ideal) (aggregate (F := Ideal) (hidden (F := Ideal) (aggregate (F := Ideal) (project (F := Ideal) (m ((c.tc : Thread nD τ).loc main_arg0)) (m ((c.tc : Thread nD τ).loc main_arg2))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg3)) Facts₀.shapeCasts_S128_S1x128) (m ((c.tc : Thread nD τ).loc main_arg4))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg5)) Facts₀.shapeCasts_S128_S1x128)) :=
  (W8_arr m ρ c 4).trans ((Region2.result_embedding (V7 m ρ) c).trans (by
    rw [show V7 m ρ c main_v58 = _ from at7_v58 m ρ c, show V7 m ρ c main_v59 = _ from at7_v59 m ρ c]))

/-- The log-probabilities the kernel returns. -/
theorem logProbs_eq : W8 m ρ c (Proc.devRef .tc main_v61_1) = logSoftmax (F := Ideal) (logits (F := Ideal) (embedding (F := Ideal) (aggregate (F := Ideal) (hidden (F := Ideal) (aggregate (F := Ideal) (project (F := Ideal) (m ((c.tc : Thread nD τ).loc main_arg0)) (m ((c.tc : Thread nD τ).loc main_arg2))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg3)) Facts₀.shapeCasts_S128_S1x128) (m ((c.tc : Thread nD τ).loc main_arg4))) (sources (F := Ideal) (m ((c.tc : Thread nD τ).loc main_arg1))) (targets (F := Ideal) (m ((c.tc : Thread nD τ).loc main_arg1))) (edgeWeight (F := Ideal) (sources (F := Ideal) (m ((c.tc : Thread nD τ).loc main_arg1))) (targets (F := Ideal) (m ((c.tc : Thread nD τ).loc main_arg1))))) (shapeCast S1x128 (m ((c.tc : Thread nD τ).loc main_arg5)) Facts₀.shapeCasts_S128_S1x128)) (m ((c.tc : Thread nD τ).loc main_arg6)) (shapeCast S1x64 (m ((c.tc : Thread nD τ).loc main_arg7)) Facts₀.shapeCasts_S64_S1x64)) :=
  (W8_arr m ρ c 5).trans ((Region2.result_logProbs (V7 m ρ) c).trans (by
    rw [show V7 m ρ c main_v58 = _ from at7_v58 m ρ c, show V7 m ρ c main_v59 = _ from at7_v59 m ρ c,
      show V7 m ρ c main_arg6 = _ from at7_arg6 m ρ c, show V7 m ρ c main_v60 = _ from at7_v60 m ρ c]))

/-! ## The same results with the bias rows spelt as the reference spells them -/

/-- A vector reshaped to a one-row matrix is the vector with a leading unit axis added. -/
theorem row128 (b : FVec Ideal S128 .f32) : shapeCast S1x128 b Facts₀.shapeCasts_S128_S1x128 = asRow128 (F := Ideal) b :=
  Cert.Bridge.reshapeRow_eq b _ _
theorem row64 (b : FVec Ideal S64 .f32) : shapeCast S1x64 b Facts₀.shapeCasts_S64_S1x64 = asRow64 (F := Ideal) b :=
  Cert.Bridge.reshapeRow_eq b _ _

/-- The embeddings the kernel returns, as the composition of the whole-array steps over the arguments. -/
theorem embedding_final : W8 m ρ c (Proc.devRef .tc main_v61_0) = normalized (F := Ideal) (preNorm (F := Ideal) (m ((c.tc : Thread nD τ).loc main_arg0)) (m ((c.tc : Thread nD τ).loc main_arg1)) (m ((c.tc : Thread nD τ).loc main_arg2)) (asRow128 (F := Ideal) (m ((c.tc : Thread nD τ).loc main_arg3))) (m ((c.tc : Thread nD τ).loc main_arg4)) (asRow128 (F := Ideal) (m ((c.tc : Thread nD τ).loc main_arg5)))) := by
  rw [embedding_eq, row128, row128]
  rfl

/-- The log-probabilities the kernel returns, as the composition of the whole-array steps over the arguments. -/
theorem logProbs_final : W8 m ρ c (Proc.devRef .tc main_v61_1)
    = logSoftmax (F := Ideal) (logits (F := Ideal) (normalized (F := Ideal) (preNorm (F := Ideal) (m ((c.tc : Thread nD τ).loc main_arg0)) (m ((c.tc : Thread nD τ).loc main_arg1)) (m ((c.tc : Thread nD τ).loc main_arg2)) (asRow128 (F := Ideal) (m ((c.tc : Thread nD τ).loc main_arg3))) (m ((c.tc : Thread nD τ).loc main_arg4)) (asRow128 (F := Ideal) (m ((c.tc : Thread nD τ).loc main_arg5))))) (m ((c.tc : Thread nD τ).loc main_arg6)) (asRow64 (F := Ideal) (m ((c.tc : Thread nD τ).loc main_arg7)))) := by
  rw [logProbs_eq, row128, row128, row64]
  rfl

end Cert.KernelIdeal.Chain

end
-- ==== Proof.ReferenceRun.lean ====
/-
  The reference program as a list of host operations, and its run.

  The reference has no kernel: its @main is a straight line of 112 whole-array operations (the bodies of the functions
  it calls standing in their calls' places).  Run from any memory it terminates, and every buffer ends at the fold of
  the operations over the launch contents.  The list is also cut into six consecutive stretches — the edge
  bookkeeping, the first layer, the second aggregation, the row normalisation, the decoder's scores, the log-softmax —
  so that the fold can be read one stretch at a time.
-/
import proofs.«165917_j11570641895933_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v64) (TRef.of (T := ⟨S100000x128, .f32⟩) main_v64) (TRef.of (T := ⟨S100000x128, .f32⟩) main_call2_v0) mulf,
    TRef.nullary (TRef.of (T := ⟨S_, .f32⟩) main_call2_cst) (constant S_ .f32 0x00000000#32),
    TRef.binary (TRef.of (T := ⟨S100000x128, .f32⟩) main_call2_v0) (TRef.of (T := ⟨S_, .f32⟩) main_call2_cst) (TRef.of (T := ⟨S100000, .f32⟩) main_call2_v1) (fun x v => Host.reduceAdd x v reducesTo_S100000x128_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v65) Host.sqrt,
    nullary main_cst_12 (constant S_ .f32 0x2B8CBCCC#32),
    unary main_cst_12 main_v66 (broadcastInDim S100000x1 ![] bcast_S_S100000x1 : (⟨S_, .f32⟩ : BufTy).Contents (Elt F) → (⟨S100000x1, .f32⟩ : BufTy).Contents (Elt F)),
    binary main_v65 main_v66 main_v67 (addf : (⟨S100000x1, .f32⟩ : BufTy).Contents (Elt F) → (⟨S100000x1, .f32⟩ : BufTy).Contents (Elt F) → (⟨S100000x1, .f32⟩ : BufTy).Contents (Elt F)),
    unary main_v67 main_v68 (broadcastInDim S100000x128 ![0, 1] bcast_S100000x1_S100000x128_0_1 : (⟨S100000x1, .f32⟩ : BufTy).Contents (Elt F) → (⟨S100000x128, .f32⟩ : BufTy).Contents (Elt F)),
    binary main_v64 main_v68 main_v69 (Host.divf : (⟨S100000x128, .f32⟩ : BufTy).Contents (Elt F) → (⟨S100000x128, .f32⟩ : BufTy).Contents (Elt F) → (⟨S100000x128, .f32⟩ : BufTy).Contents (Elt F)),
    binary main_v69 main_arg6 main_v70 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0xFF800000#32),
    TRef.binary (TRef.of (T := ⟨S100000x64, .f32⟩) main_v73) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v73) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v74) subf ]

/-- The edge bookkeeping: sources, targets, degrees, edge weights. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first layer: product, aggregation, bias, maximum with zero, second product. -/
abbrev opsB : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second aggregation and its bias. -/
abbrev opsC1 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

/-- The row normalisation. -/
abbrev opsC2 : List (HloOp τ sig (Elt F)) :=
  [ TRef.binary (TRef.of (T := ⟨S100000x128, .f32⟩) main_v64) (TRef.of (T := ⟨S100000x128, .f32⟩) main_v64) (TRef.of (T := ⟨S100000x128, .f32⟩) main_call2_v0) mulf,
    TRef.nullary (TRef.of (T := ⟨S_, .f32⟩) main_call2_cst) (constant S_ .f32 0x00000000#32),
    TRef.binary (TRef.of (T := ⟨S100000x128, .f32⟩) main_call2_v0) (TRef.of (T := ⟨S_, .f32⟩) main_call2_cst) (TRef.of (T := ⟨S100000, .f32⟩) main_call2_v1) (fun x v => Host.reduceAdd x v reducesTo_S100000x128_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v65) Host.sqrt,
    nullary main_cst_12 (constant S_ .f32 0x2B8CBCCC#32),
    unary main_cst_12 main_v66 (broadcastInDim S100000x1 ![] bcast_S_S100000x1 : (⟨S_, .f32⟩ : BufTy).Contents (Elt F) → (⟨S100000x1, .f32⟩ : BufTy).Contents (Elt F)),
    binary main_v65 main_v66 main_v67 (addf : (⟨S100000x1, .f32⟩ : BufTy).Contents (Elt F) → (⟨S100000x1, .f32⟩ : BufTy).Contents (Elt F) → (⟨S100000x1, .f32⟩ : BufTy).Contents (Elt F)),
    unary main_v67 main_v68 (broadcastInDim S100000x128 ![0, 1] bcast_S100000x1_S100000x128_0_1 : (⟨S100000x1, .f32⟩ : BufTy).Contents (Elt F) → (⟨S100000x128, .f32⟩ : BufTy).Contents (Elt F)),
    binary main_v64 main_v68 main_v69 (Host.divf : (⟨S100000x128, .f32⟩ : BufTy).Contents (Elt F) → (⟨S100000x128, .f32⟩ : BufTy).Contents (Elt F) → (⟨S100000x128, .f32⟩ : BufTy).Contents (Elt F)) ]

/-- The decoder's scores. -/
abbrev opsC3 : List (HloOp τ sig (Elt F)) :=
  [ binary main_v69 main_arg6 main_v70 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)) ]

/-- The logarithm of the softmax. -/
abbrev opsC4 : List (HloOp τ sig (Elt F)) :=
  [ TRef.nullary (TRef.of (T := ⟨S_, .f32⟩) main_call3_cst) (constant S_ .f32 0xFF800000#32),
    TRef.binary (TRef.of (T := ⟨S100000x64, .f32⟩) main_v73) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v73) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v74) subf ]

/-- The six stretches, one after the other, are the whole list. -/
theorem ops_eq : (ops : List (HloOp τ sig (Elt F))) = opsA ++ (opsB ++ (opsC1 ++ (opsC2 ++ (opsC3 ++ opsC4)))) := rfl

/-- The fold over two lists joined is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
set_option maxHeartbeats 4000000 in
/-- The reference's @main is its operations run one after the other. -/
theorem main_eq (c : Dev nD) : main (F := F) c = seq ops := rfl
/-- The reference scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide
set_option maxRecDepth 8192 in
/-- Every operation touches buffers of the TensorCore only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of the reference terminates, and every buffer ends at the fold of the operations over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Straight

end
-- ==== Proof.ReferenceValue.lean ====
/-
  The reference program's two results as the composition of the whole-array steps.

  The fold of the reference's operations is read one stretch at a time, over an arbitrary valuation of the buffers:
  each stretch's outputs are one of the named whole-array steps applied to what the stretch reads, and the buffers a
  stretch does not write keep their contents.  Chaining the six stretches from the launch contents gives the two
  results as functions of the arguments.  No arithmetic is opened: a stretch's operations are, one for one, the
  operations the named step is spelt with.
-/
import proofs.«165917_j11570641895933_1_alg».proof.Proof.ReferenceRun
import proofs.«165917_j11570641895933_1_alg».proof.Proof.GcnSpec
import proofs.«165917_j11570641895933_1_alg».proof.Proof.LibTypedRef

noncomputable section

namespace Cert.ReferenceIdeal.Straight

open Cert.ReferenceIdeal Cert.ReferenceIdeal.Gen Idealize.ShloMosaic Idealize.ShloMosaic.TcCoe Idealize.SL.Sem Idealize.ShloMosaic.StableHlo
open Cert.Gcn Cert.Lib.TypedRef

variable {F : FTy → Type} [FloatOps F]

section Stretches

variable (W : Valuation τ sig (Elt F))

attribute [local irreducible] Host.gather Host.scatterAdd Host.reduce Host.reduceAdd

/-! ## The edge bookkeeping -/

theorem opsA_sources : after opsA W (Proc.devRef .tc main_v3) = sources (W (Proc.devRef .tc main_arg1)) := by
  after_results_simp; rfl
theorem opsA_targets : after opsA W (Proc.devRef .tc main_v6) = targets (W (Proc.devRef .tc main_arg1)) := by
  after_results_simp; rfl
theorem opsA_weight : after opsA W (Proc.devRef .tc main_v29)
    = edgeWeight (sources (W (Proc.devRef .tc main_arg1))) (targets (W (Proc.devRef .tc main_arg1))) := by
  after_results_simp
  simp only [ofBuf_toBuf, toBuf_ofBuf]
  rfl
theorem opsA_keep_arg0 : after opsA W (Proc.devRef .tc main_arg0) = W (Proc.devRef .tc main_arg0) := by after_results_simp
theorem opsA_keep_arg2 : after opsA W (Proc.devRef .tc main_arg2) = W (Proc.devRef .tc main_arg2) := by after_results_simp
theorem opsA_keep_arg3 : after opsA W (Proc.devRef .tc main_arg3) = W (Proc.devRef .tc main_arg3) := by after_results_simp
theorem opsA_keep_arg4 : after opsA W (Proc.devRef .tc main_arg4) = W (Proc.devRef .tc main_arg4) := by after_results_simp
theorem opsA_keep_arg5 : after opsA W (Proc.devRef .tc main_arg5) = W (Proc.devRef .tc main_arg5) := by after_results_simp
theorem opsA_keep_arg6 : after opsA W (Proc.devRef .tc main_arg6) = W (Proc.devRef .tc main_arg6) := by after_results_simp
theorem opsA_keep_arg7 : after opsA W (Proc.devRef .tc main_arg7) = W (Proc.devRef .tc main_arg7) := by after_results_simp

/-! ## The first layer -/

theorem opsB_hidden : after opsB W (Proc.devRef .tc main_v48)
    = hidden (aggregate (project (W (Proc.devRef .tc main_arg0)) (W (Proc.devRef .tc main_arg2))) (W (Proc.devRef .tc main_v3)) (W (Proc.devRef .tc main_v6)) (W (Proc.devRef .tc main_v29)))
        (asRow128 (W (Proc.devRef .tc main_arg3))) (W (Proc.devRef .tc main_arg4)) := by
  after_results_simp
  simp only [ofBuf_toBuf, toBuf_ofBuf]
  rfl
theorem opsB_keep_v3 : after opsB W (Proc.devRef .tc main_v3) = W (Proc.devRef .tc main_v3) := by after_results_simp
theorem opsB_keep_v6 : after opsB W (Proc.devRef .tc main_v6) = W (Proc.devRef .tc main_v6) := by after_results_simp
theorem opsB_keep_v29 : after opsB W (Proc.devRef .tc main_v29) = W (Proc.devRef .tc main_v29) := by after_results_simp
theorem opsB_keep_arg5 : after opsB W (Proc.devRef .tc main_arg5) = W (Proc.devRef .tc main_arg5) := by after_results_simp
theorem opsB_keep_arg6 : after opsB W (Proc.devRef .tc main_arg6) = W (Proc.devRef .tc main_arg6) := by after_results_simp
theorem opsB_keep_arg7 : after opsB W (Proc.devRef .tc main_arg7) = W (Proc.devRef .tc main_arg7) := by after_results_simp

/-! ## The second aggregation -/

theorem opsC1_biased : after opsC1 W (Proc.devRef .tc main_v64)
    = biased (aggregate (W (Proc.devRef .tc main_v48)) (W (Proc.devRef .tc main_v3)) (W (Proc.devRef .tc main_v6)) (W (Proc.devRef .tc main_v29))) (asRow128 (W (Proc.devRef .tc main_arg5))) := by
  after_results_simp; rfl
theorem opsC1_keep_arg6 : after opsC1 W (Proc.devRef .tc main_arg6) = W (Proc.devRef .tc main_arg6) := by after_results_simp
theorem opsC1_keep_arg7 : after opsC1 W (Proc.devRef .tc main_arg7) = W (Proc.devRef .tc main_arg7) := by after_results_simp

/-! ## The row normalisation -/

theorem opsC2_normalized : after opsC2 W (Proc.devRef .tc main_v69) = normalized (W (Proc.devRef .tc main_v64)) := by
  after_results_simp
  simp only [ofBuf_toBuf, toBuf_ofBuf]
  rfl
theorem opsC2_keep_arg6 : after opsC2 W (Proc.devRef .tc main_arg6) = W (Proc.devRef .tc main_arg6) := by after_results_simp
theorem opsC2_keep_arg7 : after opsC2 W (Proc.devRef .tc main_arg7) = W (Proc.devRef .tc main_arg7) := by after_results_simp

/-! ## The decoder's scores -/

theorem opsC3_logits : after opsC3 W (Proc.devRef .tc main_v73)
    = logits (W (Proc.devRef .tc main_v69)) (W (Proc.devRef .tc main_arg6)) (asRow64 (W (Proc.devRef .tc main_arg7))) := by
  after_results_simp; rfl
theorem opsC3_keep_v69 : after opsC3 W (Proc.devRef .tc main_v69) = W (Proc.devRef .tc main_v69) := by after_results_simp

/-! ## The logarithm of the softmax -/

theorem opsC4_logSoftmax : after opsC4 W (Proc.devRef .tc main_v74) = logSoftmax (W (Proc.devRef .tc main_v73)) := by
  after_results_simp
  simp only [ofBuf_toBuf, toBuf_ofBuf]
  rfl
theorem opsC4_keep_v69 : after opsC4 W (Proc.devRef .tc main_v69) = W (Proc.devRef .tc main_v69) := by after_results_simp

end Stretches

/-! ## The two results -/

variable (m : (ℓ : Loc nD τ sig) → Buf (Elt F) ℓ) (c : Dev nD)

/-- The embeddings the reference returns. -/
theorem result_embedding : after ops (launchContents m c) (Proc.devRef .tc main_v69)
    = normalized (preNorm (m ((c.tc : Thread nD τ).loc main_arg0)) (m ((c.tc : Thread nD τ).loc main_arg1))
        (m ((c.tc : Thread nD τ).loc main_arg2)) (asRow128 (m ((c.tc : Thread nD τ).loc main_arg3)))
        (m ((c.tc : Thread nD τ).loc main_arg4)) (asRow128 (m ((c.tc : Thread nD τ).loc main_arg5)))) := by
  rw [ops_eq, after_append, after_append, after_append, after_append, after_append,
    opsC4_keep_v69, opsC3_keep_v69, opsC2_normalized, opsC1_biased, opsB_hidden,
    opsB_keep_v3, opsB_keep_v6, opsB_keep_v29, opsB_keep_arg5,
    opsA_sources, opsA_targets, opsA_weight, opsA_keep_arg0, opsA_keep_arg2, opsA_keep_arg3, opsA_keep_arg4, opsA_keep_arg5]
  rfl

/-- The log-probabilities the reference returns. -/
theorem result_logProbs : after ops (launchContents m c) (Proc.devRef .tc main_v74)
    = logSoftmax (logits (normalized (preNorm (m ((c.tc : Thread nD τ).loc main_arg0)) (m ((c.tc : Thread nD τ).loc main_arg1))
        (m ((c.tc : Thread nD τ).loc main_arg2)) (asRow128 (m ((c.tc : Thread nD τ).loc main_arg3)))
        (m ((c.tc : Thread nD τ).loc main_arg4)) (asRow128 (m ((c.tc : Thread nD τ).loc main_arg5)))))
        (m ((c.tc : Thread nD τ).loc main_arg6)) (asRow64 (m ((c.tc : Thread nD τ).loc main_arg7)))) := by
  rw [ops_eq, after_append, after_append, after_append, after_append, after_append,
    opsC4_logSoftmax, opsC3_logits, opsC2_normalized, opsC2_keep_arg6, opsC2_keep_arg7, opsC1_biased, opsC1_keep_arg6, opsC1_keep_arg7,
    opsB_hidden, opsB_keep_v3, opsB_keep_v6, opsB_keep_v29, opsB_keep_arg5, opsB_keep_arg6, opsB_keep_arg7,
    opsA_sources, opsA_targets, opsA_weight, opsA_keep_arg0, opsA_keep_arg2, opsA_keep_arg3, opsA_keep_arg4, opsA_keep_arg5,
    opsA_keep_arg6, opsA_keep_arg7]
  rfl

set_option maxHeartbeats 4000000 in
/-- Argument 0 ends as launched: no operation writes it. -/
theorem arg0_kept : after ops (launchContents m c) (Proc.devRef .tc main_arg0) = m ((c.tc : Thread nD τ).loc main_arg0) := by
  after_results_simp <;> rfl

set_option maxHeartbeats 4000000 in
/-- Argument 1 ends as launched: no operation writes it. -/
theorem arg1_kept : after ops (launchContents m c) (Proc.devRef .tc main_arg1) = m ((c.tc : Thread nD τ).loc main_arg1) := by
  after_results_simp <;> rfl

set_option maxHeartbeats 4000000 in
/-- Argument 2 ends as launched: no operation writes it. -/
theorem arg2_kept : after ops (launchContents m c) (Proc.devRef .tc main_arg2) = m ((c.tc : Thread nD τ).loc main_arg2) := by
  after_results_simp <;> rfl

set_option maxHeartbeats 4000000 in
/-- Argument 3 ends as launched: no operation writes it. -/
theorem arg3_kept : after ops (launchContents m c) (Proc.devRef .tc main_arg3) = m ((c.tc : Thread nD τ).loc main_arg3) := by
  after_results_simp <;> rfl

set_option maxHeartbeats 4000000 in
/-- Argument 4 ends as launched: no operation writes it. -/
theorem arg4_kept : after ops (launchContents m c) (Proc.devRef .tc main_arg4) = m ((c.tc : Thread nD τ).loc main_arg4) := by
  after_results_simp <;> rfl

set_option maxHeartbeats 4000000 in
/-- Argument 5 ends as launched: no operation writes it. -/
theorem arg5_kept : after ops (launchContents m c) (Proc.devRef .tc main_arg5) = m ((c.tc : Thread nD τ).loc main_arg5) := by
  after_results_simp <;> rfl

set_option maxHeartbeats 4000000 in
/-- Argument 6 ends as launched: no operation writes it. -/
theorem arg6_kept : after ops (launchContents m c) (Proc.devRef .tc main_arg6) = m ((c.tc : Thread nD τ).loc main_arg6) := by
  after_results_simp <;> rfl

set_option maxHeartbeats 4000000 in
/-- Argument 7 ends as launched: no operation writes it. -/
theorem arg7_kept : after ops (launchContents m c) (Proc.devRef .tc main_arg7) = m ((c.tc : Thread nD τ).loc main_arg7) := by
  after_results_simp <;> rfl

end Cert.ReferenceIdeal.Straight

end
-- ==== Proof.lean ====
/-
  The certificate: the Pallas kernel program (two graph-convolution layers, a row normalisation, a decoder and a
  log-softmax, with its three dense stages run as kernel launches over blocks of 2000 rows) against its plain
  reference, over the extended reals.

  At the ideal values both programs compute, from the same arguments, the same composition of whole-array steps: the
  edge bookkeeping (self-loops, degrees, symmetric edge weights), a dense product, an aggregation along the edges, a
  bias and a maximum with zero, a second dense product, a second aggregation and bias, the division of every row by its
  Euclidean length plus a small constant, the decoder's product and bias, and the logarithm of the softmax of every
  row.  The reference runs every step as one host operation on whole arrays.  The kernel program runs the edge
  bookkeeping and the two aggregations as the same host operations, and the three dense stages as launches that each
  work on one block of 2000 consecutive rows at a time; since every one of those stages acts on a row by itself, the
  block of the stage's result is the stage applied to the block, and the fifty blocks cover the arrays.  A product
  whose operands are first narrowed to a shorter float format is the same product over the extended reals, and a bias
  vector reshaped to a one-row matrix is the row the reference builds by adding a leading axis.  No step uses that the
  inputs are finite: the two sides are the same expression of the same entries.  The ideal pass rewrote nothing in the
  kernel, so the idealization claim is empty.
-/
import proofs.«165917_j11570641895933_1_alg».proof.Defs
import proofs.«165917_j11570641895933_1_alg».proof.Proof.Gen.Kernel
import proofs.«165917_j11570641895933_1_alg».proof.Proof.Gen.Kernel.Frame
import proofs.«165917_j11570641895933_1_alg».proof.Proof.Gen.KernelIdeal
import proofs.«165917_j11570641895933_1_alg».proof.Proof.Gen.KernelIdeal.Frame
import proofs.«165917_j11570641895933_1_alg».proof.Proof.Gen.ReferenceIdeal
import proofs.«165917_j11570641895933_1_alg».proof.Proof.Gen.Pre_finite_inputs
import proofs.«165917_j11570641895933_1_alg».proof.Proof.KernelRun
import proofs.«165917_j11570641895933_1_alg».proof.Proof.KernelValue
import proofs.«165917_j11570641895933_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: none of its operations writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Straight.arg0_kept m c),
     (h c Cert.ReferenceIdeal.main_arg1).trans (Cert.ReferenceIdeal.Straight.arg1_kept m c),
     (h c Cert.ReferenceIdeal.main_arg2).trans (Cert.ReferenceIdeal.Straight.arg2_kept m c),
     (h c Cert.ReferenceIdeal.main_arg3).trans (Cert.ReferenceIdeal.Straight.arg3_kept m c),
     (h c Cert.ReferenceIdeal.main_arg4).trans (Cert.ReferenceIdeal.Straight.arg4_kept m c),
     (h c Cert.ReferenceIdeal.main_arg5).trans (Cert.ReferenceIdeal.Straight.arg5_kept m c),
     (h c Cert.ReferenceIdeal.main_arg6).trans (Cert.ReferenceIdeal.Straight.arg6_kept m c),
     (h c Cert.ReferenceIdeal.main_arg7).trans (Cert.ReferenceIdeal.Straight.arg7_kept m c)⟩)
    (Cert.ReferenceIdeal.Straight.run_after (F := Ideal) m ρ)

/-- The ideal pass rewrote no operation of the kernel. -/
theorem preserves : Cert.preserves_Kernel_KernelIdeal := trivial

/-- From memories that agree on the arguments both idealized programs end with the same two results: the composition
    of the whole-array steps over the arguments. -/
theorem algebraic : Cert.algebraic_KernelIdeal_ReferenceIdeal := by
  intro m ρ m' ρ' _ hagree
  refine ⟨fun c => Cert.Gcn.logSoftmax (F := Ideal) (Cert.Gcn.logits (F := Ideal) (Cert.Gcn.normalized (F := Ideal) (Cert.Gcn.preNorm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Gcn.asRow128 (F := Ideal) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (Cert.Gcn.asRow128 (F := Ideal) (m ((c.tc : Thread Cert.KernelIdeal.nD Cert.KernelIdeal.τ).loc Cert.KernelIdeal.main_arg5))))) (m ((c.tc : Thread Cert.KernelIdeal.nD Cert.KernelIdeal.τ).loc Cert.KernelIdeal.main_arg6)) (Cert.Gcn.asRow64 (F := Ideal) (m ((c.tc : Thread Cert.KernelIdeal.nD Cert.KernelIdeal.τ).loc Cert.KernelIdeal.main_arg7)))),
    fun c => Cert.Gcn.normalized (F := Ideal) (Cert.Gcn.preNorm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Gcn.asRow128 (F := Ideal) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (Cert.Gcn.asRow128 (F := Ideal) (m ((c.tc : Thread Cert.KernelIdeal.nD Cert.KernelIdeal.τ).loc Cert.KernelIdeal.main_arg5)))), ?_, ?_⟩
  · exact (θ_run Cert.KernelIdeal.defs _ _).mono (fun r h c =>
      ⟨(h c).1.trans (Cert.KernelIdeal.Chain.logProbs_final m ρ c),
       (h c).2.1.trans (Cert.KernelIdeal.Chain.embedding_final m ρ c), (h c).2.2⟩)
      (Cert.KernelIdeal.Results.run_results (F := Ideal) m ρ)
  · refine (θ_run Cert.ReferenceIdeal.defs _ _).mono (fun r h c => ?_) (Cert.ReferenceIdeal.Straight.run_after (F := Ideal) m' ρ')
    obtain ⟨e0, e1, e2, e3, e4, e5, e6, e7⟩ := hagree c
    refine ⟨?_, ?_, (h c Cert.ReferenceIdeal.main_arg0).trans (Cert.ReferenceIdeal.Straight.arg0_kept m' c),
      (h c Cert.ReferenceIdeal.main_arg1).trans (Cert.ReferenceIdeal.Straight.arg1_kept m' c),
      (h c Cert.ReferenceIdeal.main_arg2).trans (Cert.ReferenceIdeal.Straight.arg2_kept m' c),
      (h c Cert.ReferenceIdeal.main_arg3).trans (Cert.ReferenceIdeal.Straight.arg3_kept m' c),
      (h c Cert.ReferenceIdeal.main_arg4).trans (Cert.ReferenceIdeal.Straight.arg4_kept m' c),
      (h c Cert.ReferenceIdeal.main_arg5).trans (Cert.ReferenceIdeal.Straight.arg5_kept m' c),
      (h c Cert.ReferenceIdeal.main_arg6).trans (Cert.ReferenceIdeal.Straight.arg6_kept m' c),
      (h c Cert.ReferenceIdeal.main_arg7).trans (Cert.ReferenceIdeal.Straight.arg7_kept m' c)⟩
    · rw [h c Cert.ReferenceIdeal.main_v74, Cert.ReferenceIdeal.Straight.result_logProbs, e0, e1, e2, e3, e4, e5, e6, e7]
    · rw [h c Cert.ReferenceIdeal.main_v69, Cert.ReferenceIdeal.Straight.result_embedding, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
